-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩

abbrev nBuf : Space → Nat
  | .hbm => 104
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .i32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S100000x128, .f32⟩
  | .hbm, ⟨79, _⟩ => ⟨S100000x128, .bf16⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .bf16⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S1x128, .f32⟩
  | .hbm, ⟨97, _⟩ => ⟨S128, .f32⟩
  | .hbm, ⟨98, _⟩ => ⟨S1x128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S100000x128, .f32⟩
  | .hbm, ⟨103, _⟩ => ⟨S100000x128, .bf16⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S4000x128, .f32⟩
  | .local _ .vmem, ⟨33, _⟩ => ⟨S4000x128, .f32⟩
  | .local _ .vmem, ⟨34, _⟩ => ⟨S4000x128, .bf16⟩
  | .local _ .vmem, ⟨35, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_c_8 : Ref sig .tc := ⟨.hbm, 80, rfl⟩
abbrev main_v60 : Ref sig .tc := ⟨.hbm, 81, rfl⟩
abbrev main_v61 : Ref sig .tc := ⟨.hbm, 82, rfl⟩
abbrev main_c_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79_0 : Ref sig .tc := ⟨.hbm, 102, rfl⟩
abbrev main_v79_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S1600000_S1600000x1_S1600000_n_0_n_n_0_1_1_wf : GatherDims.WF S1600000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .bf16 = 32 ∨ (Rect.block (s := S100000x128) S4000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .bf16 = 32 ∨ (Rect.block (s := S100000x128) S4000x128.size (cc2_transform_7 i) (hinb2_7 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v39_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v59_1) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v59_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v79_1) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x128x128, .f32⟩
  | .hbm, ⟨11, _⟩ => ⟨S128x128, .f32⟩
  | .hbm, ⟨12, _⟩ => ⟨S1x128, .f32⟩
  | .hbm, ⟨13, _⟩ => ⟨S128, .f32⟩
  | .hbm, ⟨14, _⟩ => ⟨S1x128x128, .f32⟩
  | .hbm, ⟨15, _⟩ => ⟨S128x128, .f32⟩
  | .hbm, ⟨16, _⟩ => ⟨S1x128, .f32⟩
  | .hbm, ⟨17, _⟩ => ⟨S128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_3 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_c_8 : Ref sig .tc := ⟨.hbm, 90, rfl⟩
abbrev main_v74 : Ref sig .tc := ⟨.hbm, 91, rfl⟩
abbrev main_v75 : Ref sig .tc := ⟨.hbm, 92, rfl⟩
abbrev main_c_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«125213_j28020366639701_2_alg».proof.Proof.LibPlainDot
import proofs.«125213_j28020366639701_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«125213_j28020366639701_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.Spec.lean ====
/-
  One layer of the network, as functions of whole arrays on the extended reals.

  A layer takes the node features X : [100000, 128] and the aggregated neighbour features A of the same shape and returns
      max(max((X + A) · W1 + b1, z) · W2 + b2, z)        (an inner layer)
      max((X + A) · W1 + b1, z) · W2 + b2                (the last layer)
  with z the float zero.  The aggregate A is the segment sum: row n of A is the sum, over the edges e whose target
  index is n, of row (source index of e) of X — spelt, as both programs spell it, as rows gathered by a column of
  source indices and added into a zero array at a column of target indices.
-/
import proofs.«125213_j28020366639701_2_alg».proof.Proof.LibRowLocal

noncomputable section

open scoped BigOperators

namespace Cert.Gin

open Idealize.ShloMosaic Idealize.ShloMosaic.ValueIdx Cert.Layer

/-- Node features. -/
abbrev SN : Shape := ⟨2, ![100000, 128]⟩
/-- A weight matrix. -/
abbrev SW : Shape := ⟨2, ![128, 128]⟩
/-- A bias vector. -/
abbrev SB : Shape := ⟨1, ![128]⟩
/-- One block of 4000 rows of node features. -/
abbrev SBlk : Shape := ⟨2, ![4000, 128]⟩

/-- The float zero the maxima are taken with. -/
abbrev z0 : EReal := (Scalar.ofBits (F := Ideal) .f32 0x00000000#32 : Ideal .f32)

/-- The dense part of an inner layer on A rows: max(max(H · W1 + b1, 0) · W2 + b2, 0). -/
def mlpRelu {A : Nat} (H : (⟨2, ![A, 128]⟩ : Shape).Idx → EReal) (W1 : SW.Idx → EReal) (b1 : SB.Idx → EReal)
    (W2 : SW.Idx → EReal) (b2 : SB.Idx → EReal) : (⟨2, ![A, 128]⟩ : Shape).Idx → EReal :=
  act (prod (act (prod H W1) b1 z0) W2) b2 z0

/-- The dense part of the last layer on A rows: max(H · W1 + b1, 0) · W2 + b2. -/
def mlpLast {A : Nat} (H : (⟨2, ![A, 128]⟩ : Shape).Idx → EReal) (W1 : SW.Idx → EReal) (b1 : SB.Idx → EReal)
    (W2 : SW.Idx → EReal) (b2 : SB.Idx → EReal) : (⟨2, ![A, 128]⟩ : Shape).Idx → EReal :=
  addRow (prod (act (prod H W1) b1 z0) W2) b2

/-- The entrywise sum of two arrays of one shape. -/
def plus {A : Nat} (X Y : (⟨2, ![A, 128]⟩ : Shape).Idx → EReal) : (⟨2, ![A, 128]⟩ : Shape).Idx → EReal :=
  fun i => X i + Y i

end Cert.Gin

end
-- ==== Proof.Net.lean ====
/-
  The segment sum and one whole layer, as functions of whole arrays on the extended reals.

  The aggregate of node features X along an edge list is spelt, as both programs spell it, by two index columns of
  one entry per edge: the rows of X gathered at the source column (a row gather clamps its index into range) are
  added into the array Z (all zeros in both programs) at the target column (an update whose target index is out of
  range is dropped).  A layer adds the aggregate to X and applies the dense part of the layer row by row.
  Only the edges' sources and targets as a multiset matter: the aggregate is a sum over the edges.
-/
import proofs.«125213_j28020366639701_2_alg».proof.Proof.Spec

noncomputable section

namespace Cert.Gin

open Idealize.ShloMosaic Idealize.ShloMosaic.ValueIdx Cert.Layer Cert.LibSegSum

/-- A column of one index per edge. -/
abbrev SE : Shape := ⟨2, ![1600000, 1]⟩
/-- One gathered row per edge. -/
abbrev SU : Shape := ⟨2, ![1600000, 128]⟩

variable (wfS : ScatterDims.WF SN SE SU [1] [0] [0] 1) (wfG : GatherDims.WF SN SE SU [1] [0] [] [0] [] 1 ![1, 128])

/-- The segment sum: the rows of X at the source column, added into Z at the target column. -/
def agg (Z X : FVec Ideal SN .f32) (si di : IVec SE 32) : FVec Ideal SN .f32 :=
  Host.scatterAdd (addRowsDims 100000 1600000 128 wfS) Z di (Host.gather (rowsDims 100000 1600000 128 wfG) X si)

/-- An inner layer: the dense part of X plus its aggregate. -/
def layerRelu (Z X : FVec Ideal SN .f32) (si di : IVec SE 32) (W1 : SW.Idx → EReal) (b1 : SB.Idx → EReal)
    (W2 : SW.Idx → EReal) (b2 : SB.Idx → EReal) : SN.Idx → EReal :=
  mlpRelu (plus X (agg wfS wfG Z X si di)) W1 b1 W2 b2

/-- The last layer. -/
def layerLast (Z X : FVec Ideal SN .f32) (si di : IVec SE 32) (W1 : SW.Idx → EReal) (b1 : SB.Idx → EReal)
    (W2 : SW.Idx → EReal) (b2 : SB.Idx → EReal) : SN.Idx → EReal :=
  mlpLast (plus X (agg wfS wfG Z X si di)) W1 b1 W2 b2

end Cert.Gin

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.Host0.lean ====
/-
  The host operations before region 0, read one result at a time from ANY starting contents: the two rows of the
  edge list (sources, targets); the stable argsort of the targets; the sources and targets gathered through that
  order; the first aggregate (the rows of the node features' narrowed copy gathered at the wrapped sorted sources and
  added into zeros at the sorted targets); layer 0's weights and biases; and the buffers each stretch does not write.
-/
import proofs.«125213_j28020366639701_2_alg».proof.Proof.Gen.KernelIdeal.Frame
import proofs.«125213_j28020366639701_2_alg».proof.Proof.Net
import proofs.«125213_j28020366639701_2_alg».proof.Proof.LibTypedRef
import Idealize.ShloMosaic.Lib.StableHlo.Run
import Idealize.ShloMosaic.PureOps.Ideal

noncomputable section

namespace Cert.Gin.Host

open Idealize.ShloMosaic Idealize.ShloMosaic.TcCoe Idealize.SL.Sem Idealize.ShloMosaic.StableHlo
open Cert.KernelIdeal Cert.KernelIdeal.Facts₀ Cert.KernelIdeal.Facts

-- the buffer contents a stretch of host operations starts from: any
variable (Wp : Valuation τ sig (Elt Ideal))

/-- The sources: row 0 of the edge list. -/
theorem src_0 : after (Gen.hostOps0 (F := Ideal)) Wp (Proc.devRef .tc main_v1)
    = shapeCast S1600000 (extractStridedSlice S1x1600000 ![0, 0] (Wp (Proc.devRef .tc main_arg1)) slices_S2x1600000_S1x1600000_0_0) shapeCasts_S1x1600000_S1600000 := by
  after_results <;> rfl

/-- The targets: row 1 of the edge list. -/
theorem dst_0 : after (Gen.hostOps0 (F := Ideal)) Wp (Proc.devRef .tc main_v3)
    = shapeCast S1600000 (extractStridedSlice S1x1600000 ![1, 0] (Wp (Proc.devRef .tc main_arg1)) slices_S2x1600000_S1x1600000_1_0) shapeCasts_S1x1600000_S1600000 := by
  after_results <;> rfl

/-- An argument array is not written. -/
theorem keep0_arg0 : after (Gen.hostOps0 (F := Ideal)) Wp (Proc.devRef .tc main_arg0) = Wp (Proc.devRef .tc main_arg0) := by
  after_results

/-- An argument array is not written. -/
theorem keep0_arg2 : after (Gen.hostOps0 (F := Ideal)) Wp (Proc.devRef .tc main_arg2) = Wp (Proc.devRef .tc main_arg2) := by
  after_results

/-- An argument array is not written. -/
theorem keep0_arg3 : after (Gen.hostOps0 (F := Ideal)) Wp (Proc.devRef .tc main_arg3) = Wp (Proc.devRef .tc main_arg3) := by
  after_results

/-- An argument array is not written. -/
theorem keep0_arg4 : after (Gen.hostOps0 (F := Ideal)) Wp (Proc.devRef .tc main_arg4) = Wp (Proc.devRef .tc main_arg4) := by
  after_results

/-- An argument array is not written. -/
theorem keep0_arg5 : after (Gen.hostOps0 (F := Ideal)) Wp (Proc.devRef .tc main_arg5) = Wp (Proc.devRef .tc main_arg5) := by
  after_results

/-- The order: the positions of the targets after a stable sort (the second result of sorting the targets together with
    the list 0, 1, 2, …). -/
theorem order_0 : after (Gen.hostOps0_1 (F := Ideal)) Wp (Proc.devRef .tc main_v4)
    = (Host.sort2 S1600000 0 comparator_i32_i32_d0 (Wp (Proc.devRef .tc main_v3)) (iotaInDim S1600000 32 0)).2 := by
  after_results
  simp only [Cert.Lib.TypedRef.ofBuf_toBuf]
  rfl

/-- The sort writes only its own three buffers. -/
theorem keep01_v1 : after (Gen.hostOps0_1 (F := Ideal)) Wp (Proc.devRef .tc main_v1) = Wp (Proc.devRef .tc main_v1) := by
  after_results

/-- The sort writes only its own three buffers. -/
theorem keep01_v3 : after (Gen.hostOps0_1 (F := Ideal)) Wp (Proc.devRef .tc main_v3) = Wp (Proc.devRef .tc main_v3) := by
  after_results

/-- The sort writes only its own three buffers. -/
theorem keep01_arg0 : after (Gen.hostOps0_1 (F := Ideal)) Wp (Proc.devRef .tc main_arg0) = Wp (Proc.devRef .tc main_arg0) := by
  after_results

/-- The sort writes only its own three buffers. -/
theorem keep01_arg2 : after (Gen.hostOps0_1 (F := Ideal)) Wp (Proc.devRef .tc main_arg2) = Wp (Proc.devRef .tc main_arg2) := by
  after_results

/-- The sort writes only its own three buffers. -/
theorem keep01_arg3 : after (Gen.hostOps0_1 (F := Ideal)) Wp (Proc.devRef .tc main_arg3) = Wp (Proc.devRef .tc main_arg3) := by
  after_results

/-- The sort writes only its own three buffers. -/
theorem keep01_arg4 : after (Gen.hostOps0_1 (F := Ideal)) Wp (Proc.devRef .tc main_arg4) = Wp (Proc.devRef .tc main_arg4) := by
  after_results

/-- The sort writes only its own three buffers. -/
theorem keep01_arg5 : after (Gen.hostOps0_1 (F := Ideal)) Wp (Proc.devRef .tc main_arg5) = Wp (Proc.devRef .tc main_arg5) := by
  after_results

set_option maxHeartbeats 4000000 in
/-- The sorted sources: the sources gathered through the order (wrapped when negative, spread to a column). -/
theorem ssrc_0 : after (Gen.hostOps0_2 (F := Ideal)) Wp (Proc.devRef .tc main_v11)
    = Host.gather gather_S1600000_S1600000x1_S1600000_n_0_n_n_0_1_1 (Wp (Proc.devRef .tc main_v1))
        (broadcastInDim S1600000x1 ![0] bcast_S1600000_S1600000x1_0
          (select (cmpi .slt (Wp (Proc.devRef .tc main_v4)) (broadcastInDim S1600000 ![] bcast_S_S1600000 (constantI S_ 32 0#32)))
            (addi (Wp (Proc.devRef .tc main_v4)) (broadcastInDim S1600000 ![] bcast_S_S1600000 (constantI S_ 32 1600000#32)))
            (Wp (Proc.devRef .tc main_v4)))) := by
  after_results_simp <;> rfl

set_option maxHeartbeats 4000000 in
/-- The sorted targets: the targets gathered through the order. -/
theorem sdst_0 : after (Gen.hostOps0_2 (F := Ideal)) Wp (Proc.devRef .tc main_v18)
    = Host.gather gather_S1600000_S1600000x1_S1600000_n_0_n_n_0_1_1 (Wp (Proc.devRef .tc main_v3))
        (broadcastInDim S1600000x1 ![0] bcast_S1600000_S1600000x1_0
          (select (cmpi .slt (Wp (Proc.devRef .tc main_v4)) (broadcastInDim S1600000 ![] bcast_S_S1600000 (constantI S_ 32 0#32)))
            (addi (Wp (Proc.devRef .tc main_v4)) (broadcastInDim S1600000 ![] bcast_S_S1600000 (constantI S_ 32 1600000#32)))
            (Wp (Proc.devRef .tc main_v4)))) := by
  after_results_simp <;> rfl

set_option maxHeartbeats 8000000 in
/-- The first aggregate: the segment sum of the node features (their narrowed copy, widened back: the identity on the
    extended reals) along the sorted edge list this same stretch computes. -/
theorem agg_0 : after (Gen.hostOps0_2 (F := Ideal)) Wp (Proc.devRef .tc main_v30)
    = Cert.Gin.agg scatter_S100000x128_S1600000x1_S1600000x128_1_0_0_1_wf gather_S100000x128_S1600000x1_S1600000x128_1_0_n_n_0_1_1128_wf
        (broadcastInDim S100000x128 ![] bcast_S_S100000x128 (constant (F := Ideal) S_ .f32 0x00000000#32))
        (Wp (Proc.devRef .tc main_arg0))
        (broadcastInDim S1600000x1 ![0] bcast_S1600000_S1600000x1_0
          (select (cmpi .slt (after (Gen.hostOps0_2 (F := Ideal)) Wp (Proc.devRef .tc main_v11)) (broadcastInDim S1600000 ![] bcast_S_S1600000 (constantI S_ 32 0#32)))
            (addi (after (Gen.hostOps0_2 (F := Ideal)) Wp (Proc.devRef .tc main_v11)) (broadcastInDim S1600000 ![] bcast_S_S1600000 (constantI S_ 32 100000#32)))
            (after (Gen.hostOps0_2 (F := Ideal)) Wp (Proc.devRef .tc main_v11))))
        (broadcastInDim S1600000x1 ![0] bcast_S1600000_S1600000x1_0 (after (Gen.hostOps0_2 (F := Ideal)) Wp (Proc.devRef .tc main_v18))) := by
  rw [ssrc_0, sdst_0]
  after_results_simp <;> rfl

/-- Layer 0's first weight matrix: slab 0 of the stacked first weights. -/
theorem w1_0 : after (Gen.hostOps0_2 (F := Ideal)) Wp (Proc.devRef .tc main_v32)
    = shapeCast S128x128 (extractStridedSlice S1x128x128 ![0, 0, 0] (Wp (Proc.devRef .tc main_arg2)) slices_S3x128x128_S1x128x128_0_0_0) shapeCasts_S1x128x128_S128x128 := by
  after_results <;> rfl

/-- Layer 0's first bias vector. -/
theorem b1_0 : after (Gen.hostOps0_2 (F := Ideal)) Wp (Proc.devRef .tc main_v34)
    = shapeCast S128 (extractStridedSlice S1x128 ![0, 0] (Wp (Proc.devRef .tc main_arg3)) slices_S3x128_S1x128_0_0) shapeCasts_S1x128_S128 := by
  after_results <;> rfl

/-- Layer 0's second weight matrix. -/
theorem w2_0 : after (Gen.hostOps0_2 (F := Ideal)) Wp (Proc.devRef .tc main_v36)
    = shapeCast S128x128 (extractStridedSlice S1x128x128 ![0, 0, 0] (Wp (Proc.devRef .tc main_arg4)) slices_S3x128x128_S1x128x128_0_0_0) shapeCasts_S1x128x128_S128x128 := by
  after_results <;> rfl

/-- Layer 0's second bias vector. -/
theorem b2_0 : after (Gen.hostOps0_2 (F := Ideal)) Wp (Proc.devRef .tc main_v38)
    = shapeCast S128 (extractStridedSlice S1x128 ![0, 0] (Wp (Proc.devRef .tc main_arg5)) slices_S3x128_S1x128_0_0) shapeCasts_S1x128_S128 := by
  after_results <;> rfl

/-- An argument array is not written. -/
theorem keep02_arg0 : after (Gen.hostOps0_2 (F := Ideal)) Wp (Proc.devRef .tc main_arg0) = Wp (Proc.devRef .tc main_arg0) := by
  after_results

/-- An argument array is not written. -/
theorem keep02_arg2 : after (Gen.hostOps0_2 (F := Ideal)) Wp (Proc.devRef .tc main_arg2) = Wp (Proc.devRef .tc main_arg2) := by
  after_results

/-- An argument array is not written. -/
theorem keep02_arg3 : after (Gen.hostOps0_2 (F := Ideal)) Wp (Proc.devRef .tc main_arg3) = Wp (Proc.devRef .tc main_arg3) := by
  after_results

/-- An argument array is not written. -/
theorem keep02_arg4 : after (Gen.hostOps0_2 (F := Ideal)) Wp (Proc.devRef .tc main_arg4) = Wp (Proc.devRef .tc main_arg4) := by
  after_results

/-- An argument array is not written. -/
theorem keep02_arg5 : after (Gen.hostOps0_2 (F := Ideal)) Wp (Proc.devRef .tc main_arg5) = Wp (Proc.devRef .tc main_arg5) := by
  after_results

end Cert.Gin.Host

end
-- ==== Proof.Region0.lean ====
/-
  The first layer's kernel region, from blocks to the whole array.

  The region runs over 25 points; point t holds rows 4000·t … 4000·t + 3999 of the layer's input features X and of
  their aggregate A, and the whole weight matrices and bias vectors.  At every point the body computes, of its blocks,
      max(max((x + a) · W1 + b1, 0) · W2 + b2, 0)
  and stores it twice: as it is, and narrowed (which is the identity on the extended reals).  Each stage of this
  function acts row by row, so the block's result is the same rows of the function of the whole arrays; the 25 blocks
  of rows cover the 100000 rows (row r lies in block r / 4000), so each output array ends holding the layer function
  of the six input arrays as the region found them.
-/
import proofs.«125213_j28020366639701_2_alg».proof.Proof.Gen.KernelIdeal.Frame
import proofs.«125213_j28020366639701_2_alg».proof.Proof.Spec
import Idealize.ShloMosaic.Lib.Pipeline.Value
import Idealize.ShloMosaic.Lib.ValueIdx
import Idealize.ShloMosaic.Lib.ValueLayout

noncomputable section

namespace Cert.Gin.Region0

open Idealize.ShloMosaic Idealize.ShloMosaic.ValueIdx Idealize.ShloMosaic.TcCoe Idealize.SL.Sem
open Idealize.ShloMosaic.Pipeline (Dat)
open Cert.KernelIdeal Cert.KernelIdeal.Gen Cert.Layer Cert.RowLocal

/-! ## The body's arithmetic is the layer function of the loaded blocks -/

theorem hz2 : (![0, 0] : Fin 2 → Nat) = fun _ => 0 := funext fun a => by fin_cases a <;> rfl
theorem hz1 : (![0] : Fin 1 → Nat) = fun _ => 0 := funext fun a => by fin_cases a <;> rfl

/-- What the body stores in the first output: the layer function of the blocks of X and A and of the weights.
    A cast to the same shape is the identity, and so is a narrowing on the extended reals; the two matmuls into the
    zero accumulator are plain products, the bias adds followed by maxima with zero are the row stages. -/
theorem pay1_eq (x0 x1 : Vec Ideal S4000x128 .f32) (x2 : Vec Ideal S128x128 .f32) (x3 : Vec Ideal S128 .f32)
    (x4 : Vec Ideal S128x128 .f32) (x5 : Vec Ideal S128 .f32) :
    k0_pay1 x0 x1 x2 x3 x4 x5 = mlpRelu (plus x0 x1) x2 x3 x4 x5 := by
  unfold k0_pay1
  dsimp only
  rw [shapeCast_self x1, shapeCast_self x2, shapeCast_self x3, shapeCast_self x4, shapeCast_self x5]
  rw [kernelProd_eq _ rfl rfl rfl rfl rfl rfl, kernelAct_eq, kernelProd_eq _ rfl rfl rfl rfl rfl rfl, kernelAct_eq]
  rfl

/-- The second output is the first, narrowed: the same function. -/
theorem pay2_eq (x0 x1 : Vec Ideal S4000x128 .f32) (x2 : Vec Ideal S128x128 .f32) (x3 : Vec Ideal S128 .f32)
    (x4 : Vec Ideal S128x128 .f32) (x5 : Vec Ideal S128 .f32) :
    k0_pay2 x0 x1 x2 x3 x4 x5 = mlpRelu (plus x0 x1) x2 x3 x4 x5 := by
  unfold k0_pay2
  dsimp only
  exact pay1_eq x0 x1 x2 x3 x4 x5

/-- The body loads its whole blocks and stores its whole result once: the first output's buffer after the body. -/
theorem out6_eq (x0 x1 : Vec Ideal S4000x128 .f32) (x2 : Vec Ideal S128x128 .f32) (x3 : Vec Ideal S128 .f32)
    (x4 : Vec Ideal S128x128 .f32) (x5 : Vec Ideal S128 .f32) :
    out0_6 (F := Ideal) x0 x1 x2 x3 x4 x5 = mlpRelu (plus x0 x1) x2 x3 x4 x5 := by
  unfold out0_6
  rw [View.canon_unit_zero hz2]
  simp only [View.ld_unit_zero (S := S4000x128) hz2, View.ld_unit_zero (S := S128x128) hz2, View.ld_unit_zero (S := S128) hz1]
  exact pay1_eq x0 x1 x2 x3 x4 x5

/-- The second output's buffer after the body. -/
theorem out7_eq (x0 x1 : Vec Ideal S4000x128 .f32) (x2 : Vec Ideal S128x128 .f32) (x3 : Vec Ideal S128 .f32)
    (x4 : Vec Ideal S128x128 .f32) (x5 : Vec Ideal S128 .f32) :
    out0_7 (F := Ideal) x0 x1 x2 x3 x4 x5 = mlpRelu (plus x0 x1) x2 x3 x4 x5 := by
  unfold out0_7
  rw [View.canon_unit_zero hz2]
  simp only [View.ld_unit_zero (S := S4000x128) hz2, View.ld_unit_zero (S := S128x128) hz2, View.ld_unit_zero (S := S128) hz1]
  exact pay2_eq x0 x1 x2 x3 x4 x5

/-! ## The layer function acts row by row -/

/-- The sum of two blocks of rows is that block of the sum. -/
theorem rowsOf_plus {a A : Nat} (e : Fin a → Fin A) {x y : (⟨2, ![a, 128]⟩ : Shape).Idx → EReal}
    {X Y : (⟨2, ![A, 128]⟩ : Shape).Idx → EReal} (hx : RowsOf e x X) (hy : RowsOf e y Y) :
    RowsOf e (plus x y) (plus X Y) :=
  fun p q => by
    show x (ix2 p q) + y (ix2 p q) = X (ix2 (e p) q) + Y (ix2 (e p) q)
    rw [hx p q, hy p q]

/-- The layer function of a block of rows is that block of the layer function. -/
theorem rowsOf_layer {a A : Nat} (e : Fin a → Fin A) {h : (⟨2, ![a, 128]⟩ : Shape).Idx → EReal}
    {H : (⟨2, ![A, 128]⟩ : Shape).Idx → EReal} (hh : RowsOf e h H) (W1 : SW.Idx → EReal) (b1 : SB.Idx → EReal)
    (W2 : SW.Idx → EReal) (b2 : SB.Idx → EReal) :
    RowsOf e (mlpRelu h W1 b1 W2 b2) (mlpRelu H W1 b1 W2 b2) :=
  rowsOf_act e (rowsOf_prod e (rowsOf_act e (rowsOf_prod e hh W1) b1 z0) W2) b2 z0

/-! ## The blocks of the arrays -/

section Arrays
variable (V : (c : Dev nD) → (b : Ref sig .tc) → Buf (Elt Ideal) ((c : Thread nD τ).loc b))

/-- The printed index maps, decided over the 25 points: the windows of X, of A and of the two outputs are at block
    (t, 0) at point t, those of the weights and biases at block 0. -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0
  ∧ win0_7.index t (0 : Fin 2) = t.val ∧ win0_7.index t (1 : Fin 2) = 0 :=
  (by decide +kernel : ∀ t : Fin grid0.N, _)

theorem lt25 (t : Fin cfg0.N) : t.val < 25 := lt_of_lt_of_eq t.isLt N_0

/-- Row p of the block of point t is row 4000·t + p of the array. -/
def rowAt (t : Fin cfg0.N) (p : Fin 4000) : Fin 100000 :=
  ⟨4000 * t.val + p.val, by have := lt25 t; have := p.isLt; omega⟩

/-- The block of X at point t holds rows 4000·t + p of X. -/
theorem blk0_rows (c : Dev nD) (t : Fin cfg0.N) :
    RowsOf (rowAt t) (iblk0 V c 0 t : Vec Ideal S4000x128 .f32)
      (V c (Pipeline.arrRef spec0 0) : S100000x128.Idx → Elt Ideal .f32) := fun p q => by
  obtain ⟨e0, e1, -⟩ := idx_facts t
  unfold iblk0
  rw [View.read_apply]
  show (V c (Pipeline.arrRef spec0 0) : S100000x128.Idx → Elt Ideal .f32) _ = _
  congr 1
  funext a
  apply Fin.ext
  match a with
  | ⟨0, _⟩ => show win0_0.index t 0 * 4000 + 1 * p.val = 4000 * t.val + p.val; rw [e0]; omega
  | ⟨1, _⟩ => show win0_0.index t 1 * 128 + 1 * q.val = q.val; rw [e1]; omega

/-- The block of A at point t holds rows 4000·t + p of A. -/
theorem blk1_rows (c : Dev nD) (t : Fin cfg0.N) :
    RowsOf (rowAt t) (iblk0 V c 1 t : Vec Ideal S4000x128 .f32)
      (V c (Pipeline.arrRef spec0 1) : S100000x128.Idx → Elt Ideal .f32) := fun p q => by
  obtain ⟨-, -, e0, e1, -⟩ := idx_facts t
  unfold iblk0
  rw [View.read_apply]
  show (V c (Pipeline.arrRef spec0 1) : S100000x128.Idx → Elt Ideal .f32) _ = _
  congr 1
  funext a
  apply Fin.ext
  match a with
  | ⟨0, _⟩ => show win0_1.index t 0 * 4000 + 1 * p.val = 4000 * t.val + p.val; rw [e0]; omega
  | ⟨1, _⟩ => show win0_1.index t 1 * 128 + 1 * q.val = q.val; rw [e1]; omega

/-- The block of the first weight matrix is the whole matrix at every point. -/
theorem blk2_eq (c : Dev nD) (t : Fin cfg0.N) :
    (iblk0 V c 2 t : Vec Ideal S128x128 .f32) = (V c (Pipeline.arrRef spec0 2) : S128x128.Idx → Elt Ideal .f32) := by
  obtain ⟨-, -, -, -, e0, e1, -⟩ := idx_facts t
  funext j
  unfold iblk0
  rw [View.read_apply]
  show (V c (Pipeline.arrRef spec0 2) : S128x128.Idx → Elt Ideal .f32) _ = _
  congr 1
  funext a
  apply Fin.ext
  match a with
  | ⟨0, _⟩ => show win0_2.index t 0 * 128 + 1 * (j 0).val = (j 0).val; rw [e0]; omega
  | ⟨1, _⟩ => show win0_2.index t 1 * 128 + 1 * (j 1).val = (j 1).val; rw [e1]; omega

/-- The block of the first bias vector is the whole vector at every point. -/
theorem blk3_eq (c : Dev nD) (t : Fin cfg0.N) :
    (iblk0 V c 3 t : Vec Ideal S128 .f32) = (V c (Pipeline.arrRef spec0 3) : S128.Idx → Elt Ideal .f32) := by
  obtain ⟨-, -, -, -, -, -, e0, -⟩ := idx_facts t
  funext j
  unfold iblk0
  rw [View.read_apply]
  show (V c (Pipeline.arrRef spec0 3) : S128.Idx → Elt Ideal .f32) _ = _
  congr 1
  funext a
  apply Fin.ext
  match a with
  | ⟨0, _⟩ => show win0_3.index t 0 * 128 + 1 * (j 0).val = (j 0).val; rw [e0]; omega

/-- The block of the second weight matrix is the whole matrix at every point. -/
theorem blk4_eq (c : Dev nD) (t : Fin cfg0.N) :
    (iblk0 V c 4 t : Vec Ideal S128x128 .f32) = (V c (Pipeline.arrRef spec0 4) : S128x128.Idx → Elt Ideal .f32) := by
  obtain ⟨-, -, -, -, -, -, -, e0, e1, -⟩ := idx_facts t
  funext j
  unfold iblk0
  rw [View.read_apply]
  show (V c (Pipeline.arrRef spec0 4) : S128x128.Idx → Elt Ideal .f32) _ = _
  congr 1
  funext a
  apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

/-- The block of the second bias vector is the whole vector at every point. -/
theorem blk5_eq (c : Dev nD) (t : Fin cfg0.N) :
    (iblk0 V c 5 t : Vec Ideal S128 .f32) = (V c (Pipeline.arrRef spec0 5) : S128.Idx → Elt Ideal .f32) := by
  obtain ⟨-, -, -, -, -, -, -, -, -, e0, -⟩ := idx_facts t
  funext j
  unfold iblk0
  rw [View.read_apply]
  show (V c (Pipeline.arrRef spec0 5) : S128.Idx → Elt Ideal .f32) _ = _
  congr 1
  funext a
  apply Fin.ext
  match a with
  | ⟨0, _⟩ => show win0_5.index t 0 * 128 + 1 * (j 0).val = (j 0).val; rw [e0]; omega

/-- Entry (p, q) of the first output's block at point t sits at (4000·t + p, q) of its array. -/
theorem emb6 (t : Fin cfg0.N) (p : Fin 4000) (q : Fin 128) :
    ((cfg0.win 6).blk t).view.emb (ix2 p q : S4000x128.Idx) = (ix2 (rowAt t p) q : S100000x128.Idx) := by
  obtain ⟨-, -, -, -, -, -, -, -, -, -, e0, e1, -⟩ := idx_facts t
  funext a
  apply Fin.ext
  match a with
  | ⟨0, _⟩ => show win0_6.index t 0 * 4000 + 1 * p.val = 4000 * t.val + p.val; rw [e0]; omega
  | ⟨1, _⟩ => show win0_6.index t 1 * 128 + 1 * q.val = q.val; rw [e1]; omega

/-- The same for the second output. -/
theorem emb7 (t : Fin cfg0.N) (p : Fin 4000) (q : Fin 128) :
    ((cfg0.win 7).blk t).view.emb (ix2 p q : S4000x128.Idx) = (ix2 (rowAt t p) q : S100000x128.Idx) := by
  obtain ⟨-, -, -, -, -, -, -, -, -, -, -, -, e0, e1⟩ := idx_facts t
  funext a
  apply Fin.ext
  match a with
  | ⟨0, _⟩ => show win0_7.index t 0 * 4000 + 1 * p.val = 4000 * t.val + p.val; rw [e0]; omega
  | ⟨1, _⟩ => show win0_7.index t 1 * 128 + 1 * q.val = q.val; rw [e1]; omega

/-- Row r of the first output lies in the block of point r / 4000, which is written back. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 4000, lt_of_lt_of_eq (show (i 0).val / 4000 < 25 by omega) N_0.symm⟩
  have ht : t.val = (i 0).val / 4000 := rfl
  obtain ⟨-, -, -, -, -, -, -, -, -, -, e0, e1, -⟩ := idx_facts t
  refine ⟨t, flush0_6 t, ?_⟩
  show i ∈ ((View.whole main_v39_0).slice (win0_6.rect t)).set
  rw [View.set_slice_whole, Rect.mem_set_unit]
  intro a
  match a with
  | ⟨0, _⟩ => show win0_6.index t 0 * 4000 ≤ (i 0).val ∧ (i 0).val < win0_6.index t 0 * 4000 + 4000; rw [e0, ht]; omega
  | ⟨1, _⟩ => show win0_6.index t 1 * 128 ≤ (i 1).val ∧ (i 1).val < win0_6.index t 1 * 128 + 128; rw [e1]; omega

/-- The same for the second output. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 4000, lt_of_lt_of_eq (show (i 0).val / 4000 < 25 by omega) N_0.symm⟩
  have ht : t.val = (i 0).val / 4000 := rfl
  obtain ⟨-, -, -, -, -, -, -, -, -, -, -, -, e0, e1⟩ := idx_facts t
  refine ⟨t, flush0_7 t, ?_⟩
  show i ∈ ((View.whole main_v39_1).slice (win0_7.rect t)).set
  rw [View.set_slice_whole, Rect.mem_set_unit]
  intro a
  match a with
  | ⟨0, _⟩ => show win0_7.index t 0 * 4000 ≤ (i 0).val ∧ (i 0).val < win0_7.index t 0 * 4000 + 4000; rw [e0, ht]; omega
  | ⟨1, _⟩ => show win0_7.index t 1 * 128 ≤ (i 1).val ∧ (i 1).val < win0_7.index t 1 * 128 + 128; rw [e1]; omega

/-! ## From blocks to the arrays -/

/-- The layer function of the six arrays as the region finds them. -/
abbrev layer (c : Dev nD) : SN.Idx → EReal :=
  mlpRelu (plus (V c (Pipeline.arrRef spec0 0)) (V c (Pipeline.arrRef spec0 1))) (V c (Pipeline.arrRef spec0 2))
    (V c (Pipeline.arrRef spec0 3)) (V c (Pipeline.arrRef spec0 4)) (V c (Pipeline.arrRef spec0 5))

/-- The layer function of the blocks at point t, at (p, q), is the layer function of the arrays at (4000·t + p, q). -/
theorem block_layer (c : Dev nD) (t : Fin cfg0.N) (p : Fin 4000) (q : Fin 128) :
    mlpRelu (plus (iblk0 V c 0 t : Vec Ideal S4000x128 .f32) (iblk0 V c 1 t : Vec Ideal S4000x128 .f32))
        (iblk0 V c 2 t : Vec Ideal S128x128 .f32) (iblk0 V c 3 t : Vec Ideal S128 .f32)
        (iblk0 V c 4 t : Vec Ideal S128x128 .f32) (iblk0 V c 5 t : Vec Ideal S128 .f32) (ix2 p q)
      = layer V c (ix2 (rowAt t p) q) := by
  rw [blk2_eq V c t, blk3_eq V c t, blk4_eq V c t, blk5_eq V c t]
  exact rowsOf_layer (rowAt t) (rowsOf_plus (rowAt t) (blk0_rows V c t) (blk1_rows V c t)) _ _ _ _ p q

/-- What point t writes back to the first output is its block of the layer function of the arrays. -/
theorem flushed6_eq (c : Dev nD) (t : Fin cfg0.N) :
    (dat0 (F := Ideal) V c).flushed 6 t = ((cfg0.win 6).blk t).view.read (Elt Ideal) (layer V c) := by
  show (cfg0.win 6).cut (grid0.coords t) ((dat0 (F := Ideal) V c).after 6 t) = _
  rw [after0_6, out6_eq]
  funext j
  obtain ⟨p, q, rfl⟩ : ∃ (p : Fin 4000) (q : Fin 128), j = ix2 p q := ⟨j 0, j 1, eq_ix2 j⟩
  show _ = layer V c (((cfg0.win 6).blk t).view.emb (ix2 p q : S4000x128.Idx))
  exact (block_layer V c t p q).trans (congrArg (layer V c) (emb6 t p q).symm)

/-- The same for the second output. -/
theorem flushed7_eq (c : Dev nD) (t : Fin cfg0.N) :
    (dat0 (F := Ideal) V c).flushed 7 t = ((cfg0.win 7).blk t).view.read (Elt Ideal) (layer V c) := by
  show (cfg0.win 7).cut (grid0.coords t) ((dat0 (F := Ideal) V c).after 7 t) = _
  rw [after0_7, out7_eq]
  funext j
  obtain ⟨p, q, rfl⟩ : ∃ (p : Fin 4000) (q : Fin 128), j = ix2 p q := ⟨j 0, j 1, eq_ix2 j⟩
  show _ = layer V c (((cfg0.win 7).blk t).view.emb (ix2 p q : S4000x128.Idx))
  exact (block_layer V c t p q).trans (congrArg (layer V c) (emb7 t p q).symm)

/-- THE FIRST OUTPUT ARRAY after the region: the layer function of the six input arrays at entry. -/
theorem arr6 (c : Dev nD) : (dat0 (F := Ideal) V c).arrAt 6 cfg0.N
    = mlpRelu (plus (V c (Pipeline.arrRef spec0 0)) (V c (Pipeline.arrRef spec0 1))) (V c (Pipeline.arrRef spec0 2))
        (V c (Pipeline.arrRef spec0 3)) (V c (Pipeline.arrRef spec0 4)) (V c (Pipeline.arrRef spec0 5)) :=
  (dat0 (F := Ideal) V c).arrAt_eq_of_cover 6 (layer V c) (fun t _ => flushed6_eq V c t) cover6

/-- THE SECOND OUTPUT ARRAY after the region: the same function. -/
theorem arr7 (c : Dev nD) : (dat0 (F := Ideal) V c).arrAt 7 cfg0.N
    = mlpRelu (plus (V c (Pipeline.arrRef spec0 0)) (V c (Pipeline.arrRef spec0 1))) (V c (Pipeline.arrRef spec0 2))
        (V c (Pipeline.arrRef spec0 3)) (V c (Pipeline.arrRef spec0 4)) (V c (Pipeline.arrRef spec0 5)) :=
  (dat0 (F := Ideal) V c).arrAt_eq_of_cover 7 (layer V c) (fun t _ => flushed7_eq V c t) cover7

end Arrays

end Cert.Gin.Region0

end
-- ==== Proof.Cols.lean ====
/-
  The quantities the three layers of the kernel program share, named once: the array of zeros the aggregates are added
  into, an index list wrapped (a negative index counts from the end) and spread to a column, the two sorted index
  columns of the edge list as the first host stretch leaves them, and each layer's weights and biases cut out of the
  stacked arguments.
-/
import proofs.«125213_j28020366639701_2_alg».proof.Proof.Gen.KernelIdeal.Frame
import proofs.«125213_j28020366639701_2_alg».proof.Proof.Net
import Idealize.ShloMosaic.PureOps.Ideal

noncomputable section

namespace Cert.Gin.K

open Idealize.ShloMosaic Idealize.ShloMosaic.TcCoe Idealize.SL.Sem
open Cert.KernelIdeal Cert.KernelIdeal.Facts₀ Cert.KernelIdeal.Facts

/-- The array of zeros every aggregate is added into. -/
abbrev Zk : FVec Ideal S100000x128 .f32 :=
  broadcastInDim S100000x128 ![] bcast_S_S100000x128 (constant (F := Ideal) S_ .f32 0x00000000#32)

/-- A list of node indices, each wrapped into range when negative, as a column. -/
abbrev wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- A list of node indices as a column. -/
abbrev col (v : IVec S1600000 32) : IVec S1600000x1 32 :=
  broadcastInDim S1600000x1 ![0] bcast_S1600000_S1600000x1_0 v

variable (m : (ℓ : Loc nD τ sig) → Buf (Elt Ideal) ℓ) (c : Dev nD)

/-- The sources: row 0 of the edge list. -/
abbrev srcK : IVec S1600000 32 :=
  shapeCast S1600000 (extractStridedSlice S1x1600000 ![0, 0] (m ((c.tc : Thread nD τ).loc main_arg1)) slices_S2x1600000_S1x1600000_0_0) shapeCasts_S1x1600000_S1600000
/-- The targets: row 1 of the edge list. -/
abbrev dstK : IVec S1600000 32 :=
  shapeCast S1600000 (extractStridedSlice S1x1600000 ![1, 0] (m ((c.tc : Thread nD τ).loc main_arg1)) slices_S2x1600000_S1x1600000_1_0) shapeCasts_S1x1600000_S1600000

/-- Layer 0's weights and biases. -/
abbrev w1_0 : FVec Ideal S128x128 .f32 := shapeCast S128x128 (extractStridedSlice S1x128x128 ![0, 0, 0] (m ((c.tc : Thread nD τ).loc main_arg2)) slices_S3x128x128_S1x128x128_0_0_0) shapeCasts_S1x128x128_S128x128
abbrev b1_0 : FVec Ideal S128 .f32 := shapeCast S128 (extractStridedSlice S1x128 ![0, 0] (m ((c.tc : Thread nD τ).loc main_arg3)) slices_S3x128_S1x128_0_0) shapeCasts_S1x128_S128
abbrev w2_0 : FVec Ideal S128x128 .f32 := shapeCast S128x128 (extractStridedSlice S1x128x128 ![0, 0, 0] (m ((c.tc : Thread nD τ).loc main_arg4)) slices_S3x128x128_S1x128x128_0_0_0) shapeCasts_S1x128x128_S128x128
abbrev b2_0 : FVec Ideal S128 .f32 := shapeCast S128 (extractStridedSlice S1x128 ![0, 0] (m ((c.tc : Thread nD τ).loc main_arg5)) slices_S3x128_S1x128_0_0) shapeCasts_S1x128_S128
/-- Layer 1's weights and biases. -/
abbrev w1_1 : FVec Ideal S128x128 .f32 := shapeCast S128x128 (extractStridedSlice S1x128x128 ![1, 0, 0] (m ((c.tc : Thread nD τ).loc main_arg2)) slices_S3x128x128_S1x128x128_1_0_0) shapeCasts_S1x128x128_S128x128
abbrev b1_1 : FVec Ideal S128 .f32 := shapeCast S128 (extractStridedSlice S1x128 ![1, 0] (m ((c.tc : Thread nD τ).loc main_arg3)) slices_S3x128_S1x128_1_0) shapeCasts_S1x128_S128
abbrev w2_1 : FVec Ideal S128x128 .f32 := shapeCast S128x128 (extractStridedSlice S1x128x128 ![1, 0, 0] (m ((c.tc : Thread nD τ).loc main_arg4)) slices_S3x128x128_S1x128x128_1_0_0) shapeCasts_S1x128x128_S128x128
abbrev b2_1 : FVec Ideal S128 .f32 := shapeCast S128 (extractStridedSlice S1x128 ![1, 0] (m ((c.tc : Thread nD τ).loc main_arg5)) slices_S3x128_S1x128_1_0) shapeCasts_S1x128_S128
/-- Layer 2's weights and biases. -/
abbrev w1_2 : FVec Ideal S128x128 .f32 := shapeCast S128x128 (extractStridedSlice S1x128x128 ![2, 0, 0] (m ((c.tc : Thread nD τ).loc main_arg2)) slices_S3x128x128_S1x128x128_2_0_0) shapeCasts_S1x128x128_S128x128
abbrev b1_2 : FVec Ideal S128 .f32 := shapeCast S128 (extractStridedSlice S1x128 ![2, 0] (m ((c.tc : Thread nD τ).loc main_arg3)) slices_S3x128_S1x128_2_0) shapeCasts_S1x128_S128
abbrev w2_2 : FVec Ideal S128x128 .f32 := shapeCast S128x128 (extractStridedSlice S1x128x128 ![2, 0, 0] (m ((c.tc : Thread nD τ).loc main_arg4)) slices_S3x128x128_S1x128x128_2_0_0) shapeCasts_S1x128x128_S128x128
abbrev b2_2 : FVec Ideal S128 .f32 := shapeCast S128 (extractStridedSlice S1x128 ![2, 0] (m ((c.tc : Thread nD τ).loc main_arg5)) slices_S3x128_S1x128_2_0) shapeCasts_S1x128_S128

end Cert.Gin.K

end
-- ==== Proof.LayerOf.lean ====
/-
  A layer recognised from its six arrays: if the first array is X, the second the aggregate of X, and the other four
  the layer's weights and biases, then the dense part applied to the sum of the first two is the layer of X.
-/
import proofs.«125213_j28020366639701_2_alg».proof.Proof.Net

noncomputable section

namespace Cert.Gin

open Idealize.ShloMosaic Idealize.ShloMosaic.ValueIdx Cert.Layer Cert.LibSegSum

variable (wfS : ScatterDims.WF SN SE SU [1] [0] [0] 1) (wfG : GatherDims.WF SN SE SU [1] [0] [] [0] [] 1 ![1, 128])

/-- An inner layer from its six arrays. -/
theorem layerRelu_of {A0 A1 : FVec Ideal SN .f32} {A2 A4 : SW.Idx → EReal} {A3 A5 : SB.Idx → EReal}
    {Z X : FVec Ideal SN .f32} {si di : IVec SE 32} {W1 W2 : SW.Idx → EReal} {b1 b2 : SB.Idx → EReal}
    (h0 : A0 = X) (h1 : A1 = agg wfS wfG Z X si di) (h2 : A2 = W1) (h3 : A3 = b1) (h4 : A4 = W2) (h5 : A5 = b2) :
    mlpRelu (plus A0 A1) A2 A3 A4 A5 = layerRelu wfS wfG Z X si di W1 b1 W2 b2 := by
  subst h0 h1 h2 h3 h4 h5
  rfl

/-- The last layer from its six arrays. -/
theorem layerLast_of {A0 A1 : FVec Ideal SN .f32} {A2 A4 : SW.Idx → EReal} {A3 A5 : SB.Idx → EReal}
    {Z X : FVec Ideal SN .f32} {si di : IVec SE 32} {W1 W2 : SW.Idx → EReal} {b1 b2 : SB.Idx → EReal}
    (h0 : A0 = X) (h1 : A1 = agg wfS wfG Z X si di) (h2 : A2 = W1) (h3 : A3 = b1) (h4 : A4 = W2) (h5 : A5 = b2) :
    mlpLast (plus A0 A1) A2 A3 A4 A5 = layerLast wfS wfG Z X si di W1 b1 W2 b2 := by
  subst h0 h1 h2 h3 h4 h5
  rfl

end Cert.Gin

end
-- ==== Proof.Chain0.lean ====
/-
  Layer 0 of the kernel program, from the launch to the contents after its region: the first host stretches cut the
  edge list into sources and targets, sort the targets, gather both lists through the order, aggregate the node features
  along the sorted edge list and cut out layer 0's weights; the region, block by block, leaves the layer function of
  those six arrays in both of its output arrays. No stretch writes an argument array.
-/
import proofs.«125213_j28020366639701_2_alg».proof.Proof.Host0
import proofs.«125213_j28020366639701_2_alg».proof.Proof.Region0
import proofs.«125213_j28020366639701_2_alg».proof.Proof.Cols
import proofs.«125213_j28020366639701_2_alg».proof.Proof.LayerOf

noncomputable section

namespace Cert.Gin.K

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-- An argument array as the third stretch finds it: as launched. -/
theorem W2_arg0 : Gen.W2 m ρ c (Proc.devRef .tc main_arg0) = m ((c.tc : Thread nD τ).loc main_arg0) :=
  (Host.keep01_arg0 (Gen.W1 m ρ c)).trans (Host.keep0_arg0 (Gen.W0 m ρ c))
theorem W2_arg2 : Gen.W2 m ρ c (Proc.devRef .tc main_arg2) = m ((c.tc : Thread nD τ).loc main_arg2) :=
  (Host.keep01_arg2 (Gen.W1 m ρ c)).trans (Host.keep0_arg2 (Gen.W0 m ρ c))
theorem W2_arg3 : Gen.W2 m ρ c (Proc.devRef .tc main_arg3) = m ((c.tc : Thread nD τ).loc main_arg3) :=
  (Host.keep01_arg3 (Gen.W1 m ρ c)).trans (Host.keep0_arg3 (Gen.W0 m ρ c))
theorem W2_arg4 : Gen.W2 m ρ c (Proc.devRef .tc main_arg4) = m ((c.tc : Thread nD τ).loc main_arg4) :=
  (Host.keep01_arg4 (Gen.W1 m ρ c)).trans (Host.keep0_arg4 (Gen.W0 m ρ c))
theorem W2_arg5 : Gen.W2 m ρ c (Proc.devRef .tc main_arg5) = m ((c.tc : Thread nD τ).loc main_arg5) :=
  (Host.keep01_arg5 (Gen.W1 m ρ c)).trans (Host.keep0_arg5 (Gen.W0 m ρ c))

/-- A stacked weight argument as region 0 finds it: as launched. -/
theorem W3_arg2 : Gen.W3 m ρ c (Proc.devRef .tc main_arg2) = m ((c.tc : Thread nD τ).loc main_arg2) :=
  (Host.keep02_arg2 (Gen.W2 m ρ c)).trans (W2_arg2 m ρ c)
theorem W3_arg3 : Gen.W3 m ρ c (Proc.devRef .tc main_arg3) = m ((c.tc : Thread nD τ).loc main_arg3) :=
  (Host.keep02_arg3 (Gen.W2 m ρ c)).trans (W2_arg3 m ρ c)
theorem W3_arg4 : Gen.W3 m ρ c (Proc.devRef .tc main_arg4) = m ((c.tc : Thread nD τ).loc main_arg4) :=
  (Host.keep02_arg4 (Gen.W2 m ρ c)).trans (W2_arg4 m ρ c)
theorem W3_arg5 : Gen.W3 m ρ c (Proc.devRef .tc main_arg5) = m ((c.tc : Thread nD τ).loc main_arg5) :=
  (Host.keep02_arg5 (Gen.W2 m ρ c)).trans (W2_arg5 m ρ c)

set_option maxHeartbeats 2000000 in
/-- After region 0 both of its output arrays hold layer 0 of the node features along the sorted edge list. -/
theorem step0 :
    Gen.W4 m ρ c (Proc.devRef .tc main_v39_0)
        = Cert.Gin.layerRelu scatter_S100000x128_S1600000x1_S1600000x128_1_0_0_1_wf gather_S100000x128_S1600000x1_S1600000x128_1_0_n_n_0_1_1128_wf Zk (m ((c.tc : Thread nD τ).loc main_arg0))
            (wrapCol (Gen.W3 m ρ c (Proc.devRef .tc main_v11))) (col (Gen.W3 m ρ c (Proc.devRef .tc main_v18)))
            (w1_0 m c) (b1_0 m c) (w2_0 m c) (b2_0 m c)
    ∧ Gen.W4 m ρ c (Proc.devRef .tc main_v39_1)
        = Cert.Gin.layerRelu scatter_S100000x128_S1600000x1_S1600000x128_1_0_0_1_wf gather_S100000x128_S1600000x1_S1600000x128_1_0_n_n_0_1_1128_wf Zk (m ((c.tc : Thread nD τ).loc main_arg0))
            (wrapCol (Gen.W3 m ρ c (Proc.devRef .tc main_v11))) (col (Gen.W3 m ρ c (Proc.devRef .tc main_v18)))
            (w1_0 m c) (b1_0 m c) (w2_0 m c) (b2_0 m c) := by
  have e0 : Gen.V3 m ρ c (Pipeline.arrRef spec0 0) = m ((c.tc : Thread nD τ).loc main_arg0) :=
    (Host.keep02_arg0 (Gen.W2 m ρ c)).trans (W2_arg0 m ρ c)
  have e1 : Gen.V3 m ρ c (Pipeline.arrRef spec0 1)
      = Cert.Gin.agg scatter_S100000x128_S1600000x1_S1600000x128_1_0_0_1_wf gather_S100000x128_S1600000x1_S1600000x128_1_0_n_n_0_1_1128_wf Zk (m ((c.tc : Thread nD τ).loc main_arg0))
          (wrapCol (Gen.W3 m ρ c (Proc.devRef .tc main_v11))) (col (Gen.W3 m ρ c (Proc.devRef .tc main_v18))) :=
    (Host.agg_0 (Gen.W2 m ρ c)).trans (by rw [W2_arg0])
  have e2 : Gen.V3 m ρ c (Pipeline.arrRef spec0 2) = w1_0 m c := (Host.w1_0 (Gen.W2 m ρ c)).trans (by rw [W2_arg2])
  have e3 : Gen.V3 m ρ c (Pipeline.arrRef spec0 3) = b1_0 m c := (Host.b1_0 (Gen.W2 m ρ c)).trans (by rw [W2_arg3])
  have e4 : Gen.V3 m ρ c (Pipeline.arrRef spec0 4) = w2_0 m c := (Host.w2_0 (Gen.W2 m ρ c)).trans (by rw [W2_arg4])
  have e5 : Gen.V3 m ρ c (Pipeline.arrRef spec0 5) = b2_0 m c := (Host.b2_0 (Gen.W2 m ρ c)).trans (by rw [W2_arg5])
  constructor
  · refine (Gen.W4_arr m ρ c 6).trans ((Cert.Gin.Region0.arr6 (Gen.V3 m ρ) c).trans ?_)
    exact Cert.Gin.layerRelu_of _ _ e0 e1 e2 e3 e4 e5
  · refine (Gen.W4_arr m ρ c 7).trans ((Cert.Gin.Region0.arr7 (Gen.V3 m ρ) c).trans ?_)
    exact Cert.Gin.layerRelu_of _ _ e0 e1 e2 e3 e4 e5

end Cert.Gin.K

end
-- ==== Proof.Host1.lean ====
/-
  The host operations before region 1, read one result at a time from ANY starting contents: the aggregate
  (the rows of the previous layer's narrowed copy gathered at the wrapped sorted sources and added into zeros at the
  sorted targets), the layer's two weight matrices and two bias vectors cut out of the stacked arguments, and the
  buffers the stretch does not write.
-/
import proofs.«125213_j28020366639701_2_alg».proof.Proof.Gen.KernelIdeal.Frame
import proofs.«125213_j28020366639701_2_alg».proof.Proof.Net
import Idealize.ShloMosaic.Lib.StableHlo.Run
import Idealize.ShloMosaic.PureOps.Ideal

noncomputable section

namespace Cert.Gin.Host

open Idealize.ShloMosaic Idealize.ShloMosaic.TcCoe Idealize.SL.Sem Idealize.ShloMosaic.StableHlo
open Cert.KernelIdeal Cert.KernelIdeal.Facts₀ Cert.KernelIdeal.Facts

-- the buffer contents a stretch of host operations starts from: any
variable (Wp : Valuation τ sig (Elt Ideal))

set_option maxHeartbeats 4000000 in
/-- The aggregate the region adds to its input: the segment sum of the previous layer's output (its narrowed copy,
    widened back: the identity on the extended reals) along the sorted edge list. -/
theorem agg_1 : after (Gen.hostOps1 (F := Ideal)) Wp (Proc.devRef .tc main_v50)
    = Cert.Gin.agg scatter_S100000x128_S1600000x1_S1600000x128_1_0_0_1_wf gather_S100000x128_S1600000x1_S1600000x128_1_0_n_n_0_1_1128_wf
        (broadcastInDim S100000x128 ![] bcast_S_S100000x128 (constant (F := Ideal) S_ .f32 0x00000000#32))
        (Wp (Proc.devRef .tc main_v39_1))
        (broadcastInDim S1600000x1 ![0] bcast_S1600000_S1600000x1_0
          (select (cmpi .slt (Wp (Proc.devRef .tc main_v11)) (broadcastInDim S1600000 ![] bcast_S_S1600000 (constantI S_ 32 0#32)))
            (addi (Wp (Proc.devRef .tc main_v11)) (broadcastInDim S1600000 ![] bcast_S_S1600000 (constantI S_ 32 100000#32)))
            (Wp (Proc.devRef .tc main_v11))))
        (broadcastInDim S1600000x1 ![0] bcast_S1600000_S1600000x1_0 (Wp (Proc.devRef .tc main_v18))) := by
  after_results_simp <;> rfl

/-- The layer's first weight matrix: slab 1 of the stacked first weights. -/
theorem w1_1 : after (Gen.hostOps1 (F := Ideal)) Wp (Proc.devRef .tc main_v52)
    = shapeCast S128x128 (extractStridedSlice S1x128x128 ![1, 0, 0] (Wp (Proc.devRef .tc main_arg2)) slices_S3x128x128_S1x128x128_1_0_0) shapeCasts_S1x128x128_S128x128 := by
  after_results <;> rfl

/-- The layer's first bias vector: row 1 of the stacked first biases. -/
theorem b1_1 : after (Gen.hostOps1 (F := Ideal)) Wp (Proc.devRef .tc main_v54)
    = shapeCast S128 (extractStridedSlice S1x128 ![1, 0] (Wp (Proc.devRef .tc main_arg3)) slices_S3x128_S1x128_1_0) shapeCasts_S1x128_S128 := by
  after_results <;> rfl

/-- The layer's second weight matrix. -/
theorem w2_1 : after (Gen.hostOps1 (F := Ideal)) Wp (Proc.devRef .tc main_v56)
    = shapeCast S128x128 (extractStridedSlice S1x128x128 ![1, 0, 0] (Wp (Proc.devRef .tc main_arg4)) slices_S3x128x128_S1x128x128_1_0_0) shapeCasts_S1x128x128_S128x128 := by
  after_results <;> rfl

/-- The layer's second bias vector. -/
theorem b2_1 : after (Gen.hostOps1 (F := Ideal)) Wp (Proc.devRef .tc main_v58)
    = shapeCast S128 (extractStridedSlice S1x128 ![1, 0] (Wp (Proc.devRef .tc main_arg5)) slices_S3x128_S1x128_1_0) shapeCasts_S1x128_S128 := by
  after_results <;> rfl

/-- The previous layer's output is not written. -/
theorem keep1_v39_0 : after (Gen.hostOps1 (F := Ideal)) Wp (Proc.devRef .tc main_v39_0) = Wp (Proc.devRef .tc main_v39_0) := by
  after_results

/-- The sorted sources are not written. -/
theorem keep1_v11 : after (Gen.hostOps1 (F := Ideal)) Wp (Proc.devRef .tc main_v11) = Wp (Proc.devRef .tc main_v11) := by
  after_results

/-- The sorted targets are not written. -/
theorem keep1_v18 : after (Gen.hostOps1 (F := Ideal)) Wp (Proc.devRef .tc main_v18) = Wp (Proc.devRef .tc main_v18) := by
  after_results

/-- The stacked first weights are not written. -/
theorem keep1_arg2 : after (Gen.hostOps1 (F := Ideal)) Wp (Proc.devRef .tc main_arg2) = Wp (Proc.devRef .tc main_arg2) := by
  after_results

/-- The stacked first biases are not written. -/
theorem keep1_arg3 : after (Gen.hostOps1 (F := Ideal)) Wp (Proc.devRef .tc main_arg3) = Wp (Proc.devRef .tc main_arg3) := by
  after_results

/-- The stacked second weights are not written. -/
theorem keep1_arg4 : after (Gen.hostOps1 (F := Ideal)) Wp (Proc.devRef .tc main_arg4) = Wp (Proc.devRef .tc main_arg4) := by
  after_results

/-- The stacked second biases are not written. -/
theorem keep1_arg5 : after (Gen.hostOps1 (F := Ideal)) Wp (Proc.devRef .tc main_arg5) = Wp (Proc.devRef .tc main_arg5) := by
  after_results

end Cert.Gin.Host

end
-- ==== Proof.Region1.lean ====
/-
  The second layer's kernel region, from blocks to the whole array.

  The region runs over 25 points; point t holds rows 4000·t … 4000·t + 3999 of the layer's input features X and of
  their aggregate A, and the whole weight matrices and bias vectors.  At every point the body computes, of its blocks,
      max(max((x + a) · W1 + b1, 0) · W2 + b2, 0)
  and stores it twice: as it is, and narrowed (which is the identity on the extended reals).  Each stage of this
  function acts row by row, so the block's result is the same rows of the function of the whole arrays; the 25 blocks
  of rows cover the 100000 rows (row r lies in block r / 4000), so each output array ends holding the layer function
  of the six input arrays as the region found them.
-/
import proofs.«125213_j28020366639701_2_alg».proof.Proof.Gen.KernelIdeal.Frame
import proofs.«125213_j28020366639701_2_alg».proof.Proof.Spec
import Idealize.ShloMosaic.Lib.Pipeline.Value
import Idealize.ShloMosaic.Lib.ValueIdx
import Idealize.ShloMosaic.Lib.ValueLayout

noncomputable section

namespace Cert.Gin.Region1

open Idealize.ShloMosaic Idealize.ShloMosaic.ValueIdx Idealize.ShloMosaic.TcCoe Idealize.SL.Sem
open Idealize.ShloMosaic.Pipeline (Dat)
open Cert.KernelIdeal Cert.KernelIdeal.Gen Cert.Layer Cert.RowLocal

/-! ## The body's arithmetic is the layer function of the loaded blocks -/

theorem hz2 : (![0, 0] : Fin 2 → Nat) = fun _ => 0 := funext fun a => by fin_cases a <;> rfl
theorem hz1 : (![0] : Fin 1 → Nat) = fun _ => 0 := funext fun a => by fin_cases a <;> rfl

/-- What the body stores in the first output: the layer function of the blocks of X and A and of the weights.
    A cast to the same shape is the identity, and so is a narrowing on the extended reals; the two matmuls into the
    zero accumulator are plain products, the bias adds followed by maxima with zero are the row stages. -/
theorem pay1_eq (x0 x1 : Vec Ideal S4000x128 .f32) (x2 : Vec Ideal S128x128 .f32) (x3 : Vec Ideal S128 .f32)
    (x4 : Vec Ideal S128x128 .f32) (x5 : Vec Ideal S128 .f32) :
    k1_pay1 x0 x1 x2 x3 x4 x5 = mlpRelu (plus x0 x1) x2 x3 x4 x5 := by
  unfold k1_pay1
  dsimp only
  rw [shapeCast_self x0, shapeCast_self x1, shapeCast_self x2, shapeCast_self x3, shapeCast_self x4, shapeCast_self x5]
  rw [kernelProd_eq _ rfl rfl rfl rfl rfl rfl, kernelAct_eq, kernelProd_eq _ rfl rfl rfl rfl rfl rfl, kernelAct_eq]
  rfl

/-- The second output is the first, narrowed: the same function. -/
theorem pay2_eq (x0 x1 : Vec Ideal S4000x128 .f32) (x2 : Vec Ideal S128x128 .f32) (x3 : Vec Ideal S128 .f32)
    (x4 : Vec Ideal S128x128 .f32) (x5 : Vec Ideal S128 .f32) :
    k1_pay2 x0 x1 x2 x3 x4 x5 = mlpRelu (plus x0 x1) x2 x3 x4 x5 := by
  unfold k1_pay2
  dsimp only
  exact pay1_eq x0 x1 x2 x3 x4 x5

/-- The body loads its whole blocks and stores its whole result once: the first output's buffer after the body. -/
theorem out6_eq (x0 x1 : Vec Ideal S4000x128 .f32) (x2 : Vec Ideal S128x128 .f32) (x3 : Vec Ideal S128 .f32)
    (x4 : Vec Ideal S128x128 .f32) (x5 : Vec Ideal S128 .f32) :
    out1_6 (F := Ideal) x0 x1 x2 x3 x4 x5 = mlpRelu (plus x0 x1) x2 x3 x4 x5 := by
  unfold out1_6
  rw [View.canon_unit_zero hz2]
  simp only [View.ld_unit_zero (S := S4000x128) hz2, View.ld_unit_zero (S := S128x128) hz2, View.ld_unit_zero (S := S128) hz1]
  exact pay1_eq x0 x1 x2 x3 x4 x5

/-- The second output's buffer after the body. -/
theorem out7_eq (x0 x1 : Vec Ideal S4000x128 .f32) (x2 : Vec Ideal S128x128 .f32) (x3 : Vec Ideal S128 .f32)
    (x4 : Vec Ideal S128x128 .f32) (x5 : Vec Ideal S128 .f32) :
    out1_7 (F := Ideal) x0 x1 x2 x3 x4 x5 = mlpRelu (plus x0 x1) x2 x3 x4 x5 := by
  unfold out1_7
  rw [View.canon_unit_zero hz2]
  simp only [View.ld_unit_zero (S := S4000x128) hz2, View.ld_unit_zero (S := S128x128) hz2, View.ld_unit_zero (S := S128) hz1]
  exact pay2_eq x0 x1 x2 x3 x4 x5

/-! ## The layer function acts row by row -/

/-- The sum of two blocks of rows is that block of the sum. -/
theorem rowsOf_plus {a A : Nat} (e : Fin a → Fin A) {x y : (⟨2, ![a, 128]⟩ : Shape).Idx → EReal}
    {X Y : (⟨2, ![A, 128]⟩ : Shape).Idx → EReal} (hx : RowsOf e x X) (hy : RowsOf e y Y) :
    RowsOf e (plus x y) (plus X Y) :=
  fun p q => by
    show x (ix2 p q) + y (ix2 p q) = X (ix2 (e p) q) + Y (ix2 (e p) q)
    rw [hx p q, hy p q]

/-- The layer function of a block of rows is that block of the layer function. -/
theorem rowsOf_layer {a A : Nat} (e : Fin a → Fin A) {h : (⟨2, ![a, 128]⟩ : Shape).Idx → EReal}
    {H : (⟨2, ![A, 128]⟩ : Shape).Idx → EReal} (hh : RowsOf e h H) (W1 : SW.Idx → EReal) (b1 : SB.Idx → EReal)
    (W2 : SW.Idx → EReal) (b2 : SB.Idx → EReal) :
    RowsOf e (mlpRelu h W1 b1 W2 b2) (mlpRelu H W1 b1 W2 b2) :=
  rowsOf_act e (rowsOf_prod e (rowsOf_act e (rowsOf_prod e hh W1) b1 z0) W2) b2 z0

/-! ## The blocks of the arrays -/

section Arrays
variable (V : (c : Dev nD) → (b : Ref sig .tc) → Buf (Elt Ideal) ((c : Thread nD τ).loc b))

/-- The printed index maps, decided over the 25 points: the windows of X, of A and of the two outputs are at block
    (t, 0) at point t, those of the weights and biases at block 0. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 1) = 0
  ∧ win1_4.index t (0 : Fin 2) = 0 ∧ win1_4.index t (1 : Fin 2) = 0
  ∧ win1_5.index t (0 : Fin 1) = 0
  ∧ win1_6.index t (0 : Fin 2) = t.val ∧ win1_6.index t (1 : Fin 2) = 0
  ∧ win1_7.index t (0 : Fin 2) = t.val ∧ win1_7.index t (1 : Fin 2) = 0 :=
  (by decide +kernel : ∀ t : Fin grid1.N, _)

theorem lt25 (t : Fin cfg1.N) : t.val < 25 := lt_of_lt_of_eq t.isLt N_1

/-- Row p of the block of point t is row 4000·t + p of the array. -/
def rowAt (t : Fin cfg1.N) (p : Fin 4000) : Fin 100000 :=
  ⟨4000 * t.val + p.val, by have := lt25 t; have := p.isLt; omega⟩

/-- The block of X at point t holds rows 4000·t + p of X. -/
theorem blk0_rows (c : Dev nD) (t : Fin cfg1.N) :
    RowsOf (rowAt t) (iblk1 V c 0 t : Vec Ideal S4000x128 .f32)
      (V c (Pipeline.arrRef spec1 0) : S100000x128.Idx → Elt Ideal .f32) := fun p q => by
  obtain ⟨e0, e1, -⟩ := idx_facts t
  unfold iblk1
  rw [View.read_apply]
  show (V c (Pipeline.arrRef spec1 0) : S100000x128.Idx → Elt Ideal .f32) _ = _
  congr 1
  funext a
  apply Fin.ext
  match a with
  | ⟨0, _⟩ => show win1_0.index t 0 * 4000 + 1 * p.val = 4000 * t.val + p.val; rw [e0]; omega
  | ⟨1, _⟩ => show win1_0.index t 1 * 128 + 1 * q.val = q.val; rw [e1]; omega

/-- The block of A at point t holds rows 4000·t + p of A. -/
theorem blk1_rows (c : Dev nD) (t : Fin cfg1.N) :
    RowsOf (rowAt t) (iblk1 V c 1 t : Vec Ideal S4000x128 .f32)
      (V c (Pipeline.arrRef spec1 1) : S100000x128.Idx → Elt Ideal .f32) := fun p q => by
  obtain ⟨-, -, e0, e1, -⟩ := idx_facts t
  unfold iblk1
  rw [View.read_apply]
  show (V c (Pipeline.arrRef spec1 1) : S100000x128.Idx → Elt Ideal .f32) _ = _
  congr 1
  funext a
  apply Fin.ext
  match a with
  | ⟨0, _⟩ => show win1_1.index t 0 * 4000 + 1 * p.val = 4000 * t.val + p.val; rw [e0]; omega
  | ⟨1, _⟩ => show win1_1.index t 1 * 128 + 1 * q.val = q.val; rw [e1]; omega

/-- The block of the first weight matrix is the whole matrix at every point. -/
theorem blk2_eq (c : Dev nD) (t : Fin cfg1.N) :
    (iblk1 V c 2 t : Vec Ideal S128x128 .f32) = (V c (Pipeline.arrRef spec1 2) : S128x128.Idx → Elt Ideal .f32) := by
  obtain ⟨-, -, -, -, e0, e1, -⟩ := idx_facts t
  funext j
  unfold iblk1
  rw [View.read_apply]
  show (V c (Pipeline.arrRef spec1 2) : S128x128.Idx → Elt Ideal .f32) _ = _
  congr 1
  funext a
  apply Fin.ext
  match a with
  | ⟨0, _⟩ => show win1_2.index t 0 * 128 + 1 * (j 0).val = (j 0).val; rw [e0]; omega
  | ⟨1, _⟩ => show win1_2.index t 1 * 128 + 1 * (j 1).val = (j 1).val; rw [e1]; omega

/-- The block of the first bias vector is the whole vector at every point. -/
theorem blk3_eq (c : Dev nD) (t : Fin cfg1.N) :
    (iblk1 V c 3 t : Vec Ideal S128 .f32) = (V c (Pipeline.arrRef spec1 3) : S128.Idx → Elt Ideal .f32) := by
  obtain ⟨-, -, -, -, -, -, e0, -⟩ := idx_facts t
  funext j
  unfold iblk1
  rw [View.read_apply]
  show (V c (Pipeline.arrRef spec1 3) : S128.Idx → Elt Ideal .f32) _ = _
  congr 1
  funext a
  apply Fin.ext
  match a with
  | ⟨0, _⟩ => show win1_3.index t 0 * 128 + 1 * (j 0).val = (j 0).val; rw [e0]; omega

/-- The block of the second weight matrix is the whole matrix at every point. -/
theorem blk4_eq (c : Dev nD) (t : Fin cfg1.N) :
    (iblk1 V c 4 t : Vec Ideal S128x128 .f32) = (V c (Pipeline.arrRef spec1 4) : S128x128.Idx → Elt Ideal .f32) := by
  obtain ⟨-, -, -, -, -, -, -, e0, e1, -⟩ := idx_facts t
  funext j
  unfold iblk1
  rw [View.read_apply]
  show (V c (Pipeline.arrRef spec1 4) : S128x128.Idx → Elt Ideal .f32) _ = _
  congr 1
  funext a
  apply Fin.ext
  match a with
  | ⟨0, _⟩ => show win1_4.index t 0 * 128 + 1 * (j 0).val = (j 0).val; rw [e0]; omega
  | ⟨1, _⟩ => show win1_4.index t 1 * 128 + 1 * (j 1).val = (j 1).val; rw [e1]; omega

/-- The block of the second bias vector is the whole vector at every point. -/
theorem blk5_eq (c : Dev nD) (t : Fin cfg1.N) :
    (iblk1 V c 5 t : Vec Ideal S128 .f32) = (V c (Pipeline.arrRef spec1 5) : S128.Idx → Elt Ideal .f32) := by
  obtain ⟨-, -, -, -, -, -, -, -, -, e0, -⟩ := idx_facts t
  funext j
  unfold iblk1
  rw [View.read_apply]
  show (V c (Pipeline.arrRef spec1 5) : S128.Idx → Elt Ideal .f32) _ = _
  congr 1
  funext a
  apply Fin.ext
  match a with
  | ⟨0, _⟩ => show win1_5.index t 0 * 128 + 1 * (j 0).val = (j 0).val; rw [e0]; omega

/-- Entry (p, q) of the first output's block at point t sits at (4000·t + p, q) of its array. -/
theorem emb6 (t : Fin cfg1.N) (p : Fin 4000) (q : Fin 128) :
    ((cfg1.win 6).blk t).view.emb (ix2 p q : S4000x128.Idx) = (ix2 (rowAt t p) q : S100000x128.Idx) := by
  obtain ⟨-, -, -, -, -, -, -, -, -, -, e0, e1, -⟩ := idx_facts t
  funext a
  apply Fin.ext
  match a with
  | ⟨0, _⟩ => show win1_6.index t 0 * 4000 + 1 * p.val = 4000 * t.val + p.val; rw [e0]; omega
  | ⟨1, _⟩ => show win1_6.index t 1 * 128 + 1 * q.val = q.val; rw [e1]; omega

/-- The same for the second output. -/
theorem emb7 (t : Fin cfg1.N) (p : Fin 4000) (q : Fin 128) :
    ((cfg1.win 7).blk t).view.emb (ix2 p q : S4000x128.Idx) = (ix2 (rowAt t p) q : S100000x128.Idx) := by
  obtain ⟨-, -, -, -, -, -, -, -, -, -, -, -, e0, e1⟩ := idx_facts t
  funext a
  apply Fin.ext
  match a with
  | ⟨0, _⟩ => show win1_7.index t 0 * 4000 + 1 * p.val = 4000 * t.val + p.val; rw [e0]; omega
  | ⟨1, _⟩ => show win1_7.index t 1 * 128 + 1 * q.val = q.val; rw [e1]; omega

/-- Row r of the first output lies in the block of point r / 4000, which is written back. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 4000, lt_of_lt_of_eq (show (i 0).val / 4000 < 25 by omega) N_1.symm⟩
  have ht : t.val = (i 0).val / 4000 := rfl
  obtain ⟨-, -, -, -, -, -, -, -, -, -, e0, e1, -⟩ := idx_facts t
  refine ⟨t, flush1_6 t, ?_⟩
  show i ∈ ((View.whole main_v59_0).slice (win1_6.rect t)).set
  rw [View.set_slice_whole, Rect.mem_set_unit]
  intro a
  match a with
  | ⟨0, _⟩ => show win1_6.index t 0 * 4000 ≤ (i 0).val ∧ (i 0).val < win1_6.index t 0 * 4000 + 4000; rw [e0, ht]; omega
  | ⟨1, _⟩ => show win1_6.index t 1 * 128 ≤ (i 1).val ∧ (i 1).val < win1_6.index t 1 * 128 + 128; rw [e1]; omega

/-- The same for the second output. -/
theorem cover7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 4000, lt_of_lt_of_eq (show (i 0).val / 4000 < 25 by omega) N_1.symm⟩
  have ht : t.val = (i 0).val / 4000 := rfl
  obtain ⟨-, -, -, -, -, -, -, -, -, -, -, -, e0, e1⟩ := idx_facts t
  refine ⟨t, flush1_7 t, ?_⟩
  show i ∈ ((View.whole main_v59_1).slice (win1_7.rect t)).set
  rw [View.set_slice_whole, Rect.mem_set_unit]
  intro a
  match a with
  | ⟨0, _⟩ => show win1_7.index t 0 * 4000 ≤ (i 0).val ∧ (i 0).val < win1_7.index t 0 * 4000 + 4000; rw [e0, ht]; omega
  | ⟨1, _⟩ => show win1_7.index t 1 * 128 ≤ (i 1).val ∧ (i 1).val < win1_7.index t 1 * 128 + 128; rw [e1]; omega

/-! ## From blocks to the arrays -/

/-- The layer function of the six arrays as the region finds them. -/
abbrev layer (c : Dev nD) : SN.Idx → EReal :=
  mlpRelu (plus (V c (Pipeline.arrRef spec1 0)) (V c (Pipeline.arrRef spec1 1))) (V c (Pipeline.arrRef spec1 2))
    (V c (Pipeline.arrRef spec1 3)) (V c (Pipeline.arrRef spec1 4)) (V c (Pipeline.arrRef spec1 5))

/-- The layer function of the blocks at point t, at (p, q), is the layer function of the arrays at (4000·t + p, q). -/
theorem block_layer (c : Dev nD) (t : Fin cfg1.N) (p : Fin 4000) (q : Fin 128) :
    mlpRelu (plus (iblk1 V c 0 t : Vec Ideal S4000x128 .f32) (iblk1 V c 1 t : Vec Ideal S4000x128 .f32))
        (iblk1 V c 2 t : Vec Ideal S128x128 .f32) (iblk1 V c 3 t : Vec Ideal S128 .f32)
        (iblk1 V c 4 t : Vec Ideal S128x128 .f32) (iblk1 V c 5 t : Vec Ideal S128 .f32) (ix2 p q)
      = layer V c (ix2 (rowAt t p) q) := by
  rw [blk2_eq V c t, blk3_eq V c t, blk4_eq V c t, blk5_eq V c t]
  exact rowsOf_layer (rowAt t) (rowsOf_plus (rowAt t) (blk0_rows V c t) (blk1_rows V c t)) _ _ _ _ p q

/-- What point t writes back to the first output is its block of the layer function of the arrays. -/
theorem flushed6_eq (c : Dev nD) (t : Fin cfg1.N) :
    (dat1 (F := Ideal) V c).flushed 6 t = ((cfg1.win 6).blk t).view.read (Elt Ideal) (layer V c) := by
  show (cfg1.win 6).cut (grid1.coords t) ((dat1 (F := Ideal) V c).after 6 t) = _
  rw [after1_6, out6_eq]
  funext j
  obtain ⟨p, q, rfl⟩ : ∃ (p : Fin 4000) (q : Fin 128), j = ix2 p q := ⟨j 0, j 1, eq_ix2 j⟩
  show _ = layer V c (((cfg1.win 6).blk t).view.emb (ix2 p q : S4000x128.Idx))
  exact (block_layer V c t p q).trans (congrArg (layer V c) (emb6 t p q).symm)

/-- The same for the second output. -/
theorem flushed7_eq (c : Dev nD) (t : Fin cfg1.N) :
    (dat1 (F := Ideal) V c).flushed 7 t = ((cfg1.win 7).blk t).view.read (Elt Ideal) (layer V c) := by
  show (cfg1.win 7).cut (grid1.coords t) ((dat1 (F := Ideal) V c).after 7 t) = _
  rw [after1_7, out7_eq]
  funext j
  obtain ⟨p, q, rfl⟩ : ∃ (p : Fin 4000) (q : Fin 128), j = ix2 p q := ⟨j 0, j 1, eq_ix2 j⟩
  show _ = layer V c (((cfg1.win 7).blk t).view.emb (ix2 p q : S4000x128.Idx))
  exact (block_layer V c t p q).trans (congrArg (layer V c) (emb7 t p q).symm)

/-- THE FIRST OUTPUT ARRAY after the region: the layer function of the six input arrays at entry. -/
theorem arr6 (c : Dev nD) : (dat1 (F := Ideal) V c).arrAt 6 cfg1.N
    = mlpRelu (plus (V c (Pipeline.arrRef spec1 0)) (V c (Pipeline.arrRef spec1 1))) (V c (Pipeline.arrRef spec1 2))
        (V c (Pipeline.arrRef spec1 3)) (V c (Pipeline.arrRef spec1 4)) (V c (Pipeline.arrRef spec1 5)) :=
  (dat1 (F := Ideal) V c).arrAt_eq_of_cover 6 (layer V c) (fun t _ => flushed6_eq V c t) cover6

/-- THE SECOND OUTPUT ARRAY after the region: the same function. -/
theorem arr7 (c : Dev nD) : (dat1 (F := Ideal) V c).arrAt 7 cfg1.N
    = mlpRelu (plus (V c (Pipeline.arrRef spec1 0)) (V c (Pipeline.arrRef spec1 1))) (V c (Pipeline.arrRef spec1 2))
        (V c (Pipeline.arrRef spec1 3)) (V c (Pipeline.arrRef spec1 4)) (V c (Pipeline.arrRef spec1 5)) :=
  (dat1 (F := Ideal) V c).arrAt_eq_of_cover 7 (layer V c) (fun t _ => flushed7_eq V c t) cover7

end Arrays

end Cert.Gin.Region1

end
-- ==== Proof.Chain1.lean ====
/-
  Layer 1 of the kernel program, from the buffer contents before its host stretch to the contents after its region:
  the stretch computes the aggregate of the previous layer's output along the sorted edge list and cuts out the layer's
  weights; the region, block by block, leaves the layer function of those six arrays in both of its output arrays.
-/
import proofs.«125213_j28020366639701_2_alg».proof.Proof.Host1
import proofs.«125213_j28020366639701_2_alg».proof.Proof.Region1
import proofs.«125213_j28020366639701_2_alg».proof.Proof.Cols
import proofs.«125213_j28020366639701_2_alg».proof.Proof.LayerOf

noncomputable section

namespace Cert.Gin.K

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

set_option maxHeartbeats 2000000 in
/-- If the layer starts from the previous layer's output X (in both of its copies), the sorted index lists S and D and
    the stacked weight arguments as launched, it ends with the layer function of X in both of its output arrays. -/
theorem step1 (X : FVec Ideal S100000x128 .f32) (S D : IVec S1600000 32)
    (hX0 : Gen.W4 m ρ c (Proc.devRef .tc main_v39_0) = X) (hX1 : Gen.W4 m ρ c (Proc.devRef .tc main_v39_1) = X)
    (h11 : Gen.W4 m ρ c (Proc.devRef .tc main_v11) = S) (h18 : Gen.W4 m ρ c (Proc.devRef .tc main_v18) = D)
    (ha2 : Gen.W4 m ρ c (Proc.devRef .tc main_arg2) = m ((c.tc : Thread nD τ).loc main_arg2))
    (ha3 : Gen.W4 m ρ c (Proc.devRef .tc main_arg3) = m ((c.tc : Thread nD τ).loc main_arg3))
    (ha4 : Gen.W4 m ρ c (Proc.devRef .tc main_arg4) = m ((c.tc : Thread nD τ).loc main_arg4))
    (ha5 : Gen.W4 m ρ c (Proc.devRef .tc main_arg5) = m ((c.tc : Thread nD τ).loc main_arg5)) :
    Gen.W6 m ρ c (Proc.devRef .tc main_v59_0)
        = Cert.Gin.layerRelu scatter_S100000x128_S1600000x1_S1600000x128_1_0_0_1_wf gather_S100000x128_S1600000x1_S1600000x128_1_0_n_n_0_1_1128_wf Zk X (wrapCol S) (col D) (w1_1 m c) (b1_1 m c) (w2_1 m c) (b2_1 m c)
    ∧ Gen.W6 m ρ c (Proc.devRef .tc main_v59_1)
        = Cert.Gin.layerRelu scatter_S100000x128_S1600000x1_S1600000x128_1_0_0_1_wf gather_S100000x128_S1600000x1_S1600000x128_1_0_n_n_0_1_1128_wf Zk X (wrapCol S) (col D) (w1_1 m c) (b1_1 m c) (w2_1 m c) (b2_1 m c) := by
  have e0 : Gen.V5 m ρ c (Pipeline.arrRef spec1 0) = X := (Host.keep1_v39_0 (Gen.W4 m ρ c)).trans hX0
  have e1 : Gen.V5 m ρ c (Pipeline.arrRef spec1 1)
      = Cert.Gin.agg scatter_S100000x128_S1600000x1_S1600000x128_1_0_0_1_wf gather_S100000x128_S1600000x1_S1600000x128_1_0_n_n_0_1_1128_wf Zk X (wrapCol S) (col D) :=
    (Host.agg_1 (Gen.W4 m ρ c)).trans (by rw [hX1, h11, h18])
  have e2 : Gen.V5 m ρ c (Pipeline.arrRef spec1 2) = w1_1 m c := (Host.w1_1 (Gen.W4 m ρ c)).trans (by rw [ha2])
  have e3 : Gen.V5 m ρ c (Pipeline.arrRef spec1 3) = b1_1 m c := (Host.b1_1 (Gen.W4 m ρ c)).trans (by rw [ha3])
  have e4 : Gen.V5 m ρ c (Pipeline.arrRef spec1 4) = w2_1 m c := (Host.w2_1 (Gen.W4 m ρ c)).trans (by rw [ha4])
  have e5 : Gen.V5 m ρ c (Pipeline.arrRef spec1 5) = b2_1 m c := (Host.b2_1 (Gen.W4 m ρ c)).trans (by rw [ha5])
  constructor
  · refine (Gen.W6_arr m ρ c 6).trans ((Cert.Gin.Region1.arr6 (Gen.V5 m ρ) c).trans ?_)
    exact Cert.Gin.layerRelu_of _ _ e0 e1 e2 e3 e4 e5
  · refine (Gen.W6_arr m ρ c 7).trans ((Cert.Gin.Region1.arr7 (Gen.V5 m ρ) c).trans ?_)
    exact Cert.Gin.layerRelu_of _ _ e0 e1 e2 e3 e4 e5

end Cert.Gin.K

end
-- ==== Proof.Host2.lean ====
/-
  The host operations before region 2, read one result at a time from ANY starting contents: the aggregate
  (the rows of the previous layer's narrowed copy gathered at the wrapped sorted sources and added into zeros at the
  sorted targets), the layer's two weight matrices and two bias vectors cut out of the stacked arguments, and the
  buffers the stretch does not write.
-/
import proofs.«125213_j28020366639701_2_alg».proof.Proof.Gen.KernelIdeal.Frame
import proofs.«125213_j28020366639701_2_alg».proof.Proof.Net
import Idealize.ShloMosaic.Lib.StableHlo.Run
import Idealize.ShloMosaic.PureOps.Ideal

noncomputable section

namespace Cert.Gin.Host

open Idealize.ShloMosaic Idealize.ShloMosaic.TcCoe Idealize.SL.Sem Idealize.ShloMosaic.StableHlo
open Cert.KernelIdeal Cert.KernelIdeal.Facts₀ Cert.KernelIdeal.Facts

-- the buffer contents a stretch of host operations starts from: any
variable (Wp : Valuation τ sig (Elt Ideal))

set_option maxHeartbeats 4000000 in
/-- The aggregate the region adds to its input: the segment sum of the previous layer's output (its narrowed copy,
    widened back: the identity on the extended reals) along the sorted edge list. -/
theorem agg_2 : after (Gen.hostOps2 (F := Ideal)) Wp (Proc.devRef .tc main_v70)
    = Cert.Gin.agg scatter_S100000x128_S1600000x1_S1600000x128_1_0_0_1_wf gather_S100000x128_S1600000x1_S1600000x128_1_0_n_n_0_1_1128_wf
        (broadcastInDim S100000x128 ![] bcast_S_S100000x128 (constant (F := Ideal) S_ .f32 0x00000000#32))
        (Wp (Proc.devRef .tc main_v59_1))
        (broadcastInDim S1600000x1 ![0] bcast_S1600000_S1600000x1_0
          (select (cmpi .slt (Wp (Proc.devRef .tc main_v11)) (broadcastInDim S1600000 ![] bcast_S_S1600000 (constantI S_ 32 0#32)))
            (addi (Wp (Proc.devRef .tc main_v11)) (broadcastInDim S1600000 ![] bcast_S_S1600000 (constantI S_ 32 100000#32)))
            (Wp (Proc.devRef .tc main_v11))))
        (broadcastInDim S1600000x1 ![0] bcast_S1600000_S1600000x1_0 (Wp (Proc.devRef .tc main_v18))) := by
  after_results_simp <;> rfl

/-- The layer's first weight matrix: slab 2 of the stacked first weights. -/
theorem w1_2 : after (Gen.hostOps2 (F := Ideal)) Wp (Proc.devRef .tc main_v72)
    = shapeCast S128x128 (extractStridedSlice S1x128x128 ![2, 0, 0] (Wp (Proc.devRef .tc main_arg2)) slices_S3x128x128_S1x128x128_2_0_0) shapeCasts_S1x128x128_S128x128 := by
  after_results <;> rfl

/-- The layer's first bias vector: row 2 of the stacked first biases. -/
theorem b1_2 : after (Gen.hostOps2 (F := Ideal)) Wp (Proc.devRef .tc main_v74)
    = shapeCast S128 (extractStridedSlice S1x128 ![2, 0] (Wp (Proc.devRef .tc main_arg3)) slices_S3x128_S1x128_2_0) shapeCasts_S1x128_S128 := by
  after_results <;> rfl

/-- The layer's second weight matrix. -/
theorem w2_2 : after (Gen.hostOps2 (F := Ideal)) Wp (Proc.devRef .tc main_v76)
    = shapeCast S128x128 (extractStridedSlice S1x128x128 ![2, 0, 0] (Wp (Proc.devRef .tc main_arg4)) slices_S3x128x128_S1x128x128_2_0_0) shapeCasts_S1x128x128_S128x128 := by
  after_results <;> rfl

/-- The layer's second bias vector. -/
theorem b2_2 : after (Gen.hostOps2 (F := Ideal)) Wp (Proc.devRef .tc main_v78)
    = shapeCast S128 (extractStridedSlice S1x128 ![2, 0] (Wp (Proc.devRef .tc main_arg5)) slices_S3x128_S1x128_2_0) shapeCasts_S1x128_S128 := by
  after_results <;> rfl

/-- The previous layer's output is not written. -/
theorem keep2_v59_0 : after (Gen.hostOps2 (F := Ideal)) Wp (Proc.devRef .tc main_v59_0) = Wp (Proc.devRef .tc main_v59_0) := by
  after_results

/-- The node features are not written. -/
theorem keep2_arg0 : after (Gen.hostOps2 (F := Ideal)) Wp (Proc.devRef .tc main_arg0) = Wp (Proc.devRef .tc main_arg0) := by
  after_results

/-- The edge list is not written. -/
theorem keep2_arg1 : after (Gen.hostOps2 (F := Ideal)) Wp (Proc.devRef .tc main_arg1) = Wp (Proc.devRef .tc main_arg1) := by
  after_results

/-- The stacked first weights are not written. -/
theorem keep2_arg2 : after (Gen.hostOps2 (F := Ideal)) Wp (Proc.devRef .tc main_arg2) = Wp (Proc.devRef .tc main_arg2) := by
  after_results

/-- The stacked first biases are not written. -/
theorem keep2_arg3 : after (Gen.hostOps2 (F := Ideal)) Wp (Proc.devRef .tc main_arg3) = Wp (Proc.devRef .tc main_arg3) := by
  after_results

/-- The stacked second weights are not written. -/
theorem keep2_arg4 : after (Gen.hostOps2 (F := Ideal)) Wp (Proc.devRef .tc main_arg4) = Wp (Proc.devRef .tc main_arg4) := by
  after_results

/-- The stacked second biases are not written. -/
theorem keep2_arg5 : after (Gen.hostOps2 (F := Ideal)) Wp (Proc.devRef .tc main_arg5) = Wp (Proc.devRef .tc main_arg5) := by
  after_results

end Cert.Gin.Host

end
-- ==== Proof.Region2.lean ====
/-
  The last layer's kernel region, from blocks to the whole array.

  The region runs over 25 points; point t holds rows 4000·t … 4000·t + 3999 of the layer's input features X and of
  their aggregate A, and the whole weight matrices and bias vectors.  At every point the body computes, of its blocks,
      max((x + a) · W1 + b1, 0) · W2 + b2
  and stores it twice: as it is, and narrowed (which is the identity on the extended reals).  Each stage of this
  function acts row by row, so the block's result is the same rows of the function of the whole arrays; the 25 blocks
  of rows cover the 100000 rows (row r lies in block r / 4000), so each output array ends holding the layer function
  of the six input arrays as the region found them.
-/
import proofs.«125213_j28020366639701_2_alg».proof.Proof.Gen.KernelIdeal.Frame
import proofs.«125213_j28020366639701_2_alg».proof.Proof.Spec
import Idealize.ShloMosaic.Lib.Pipeline.Value
import Idealize.ShloMosaic.Lib.ValueIdx
import Idealize.ShloMosaic.Lib.ValueLayout

noncomputable section

namespace Cert.Gin.Region2

open Idealize.ShloMosaic Idealize.ShloMosaic.ValueIdx Idealize.ShloMosaic.TcCoe Idealize.SL.Sem
open Idealize.ShloMosaic.Pipeline (Dat)
open Cert.KernelIdeal Cert.KernelIdeal.Gen Cert.Layer Cert.RowLocal

/-! ## The body's arithmetic is the layer function of the loaded blocks -/

theorem hz2 : (![0, 0] : Fin 2 → Nat) = fun _ => 0 := funext fun a => by fin_cases a <;> rfl
theorem hz1 : (![0] : Fin 1 → Nat) = fun _ => 0 := funext fun a => by fin_cases a <;> rfl

/-- What the body stores in the first output: the layer function of the blocks of X and A and of the weights.
    A cast to the same shape is the identity, and so is a narrowing on the extended reals; the two matmuls into the
    zero accumulator are plain products, the bias adds (the first followed by a maximum with zero) are the row stages. -/
theorem pay1_eq (x0 x1 : Vec Ideal S4000x128 .f32) (x2 : Vec Ideal S128x128 .f32) (x3 : Vec Ideal S128 .f32)
    (x4 : Vec Ideal S128x128 .f32) (x5 : Vec Ideal S128 .f32) :
    k2_pay1 x0 x1 x2 x3 x4 x5 = mlpLast (plus x0 x1) x2 x3 x4 x5 := by
  unfold k2_pay1
  dsimp only
  rw [shapeCast_self x0, shapeCast_self x1, shapeCast_self x2, shapeCast_self x3, shapeCast_self x4, shapeCast_self x5]
  rw [kernelProd_eq _ rfl rfl rfl rfl rfl rfl, kernelAct_eq, kernelProd_eq _ rfl rfl rfl rfl rfl rfl, kernelAddRow_eq]
  rfl

/-- The second output is the first, narrowed: the same function. -/
theorem pay2_eq (x0 x1 : Vec Ideal S4000x128 .f32) (x2 : Vec Ideal S128x128 .f32) (x3 : Vec Ideal S128 .f32)
    (x4 : Vec Ideal S128x128 .f32) (x5 : Vec Ideal S128 .f32) :
    k2_pay2 x0 x1 x2 x3 x4 x5 = mlpLast (plus x0 x1) x2 x3 x4 x5 := by
  unfold k2_pay2
  dsimp only
  exact pay1_eq x0 x1 x2 x3 x4 x5

/-- The body loads its whole blocks and stores its whole result once: the first output's buffer after the body. -/
theorem out6_eq (x0 x1 : Vec Ideal S4000x128 .f32) (x2 : Vec Ideal S128x128 .f32) (x3 : Vec Ideal S128 .f32)
    (x4 : Vec Ideal S128x128 .f32) (x5 : Vec Ideal S128 .f32) :
    out2_6 (F := Ideal) x0 x1 x2 x3 x4 x5 = mlpLast (plus x0 x1) x2 x3 x4 x5 := by
  unfold out2_6
  rw [View.canon_unit_zero hz2]
  simp only [View.ld_unit_zero (S := S4000x128) hz2, View.ld_unit_zero (S := S128x128) hz2, View.ld_unit_zero (S := S128) hz1]
  exact pay1_eq x0 x1 x2 x3 x4 x5

/-- The second output's buffer after the body. -/
theorem out7_eq (x0 x1 : Vec Ideal S4000x128 .f32) (x2 : Vec Ideal S128x128 .f32) (x3 : Vec Ideal S128 .f32)
    (x4 : Vec Ideal S128x128 .f32) (x5 : Vec Ideal S128 .f32) :
    out2_7 (F := Ideal) x0 x1 x2 x3 x4 x5 = mlpLast (plus x0 x1) x2 x3 x4 x5 := by
  unfold out2_7
  rw [View.canon_unit_zero hz2]
  simp only [View.ld_unit_zero (S := S4000x128) hz2, View.ld_unit_zero (S := S128x128) hz2, View.ld_unit_zero (S := S128) hz1]
  exact pay2_eq x0 x1 x2 x3 x4 x5

/-! ## The layer function acts row by row -/

/-- The sum of two blocks of rows is that block of the sum. -/
theorem rowsOf_plus {a A : Nat} (e : Fin a → Fin A) {x y : (⟨2, ![a, 128]⟩ : Shape).Idx → EReal}
    {X Y : (⟨2, ![A, 128]⟩ : Shape).Idx → EReal} (hx : RowsOf e x X) (hy : RowsOf e y Y) :
    RowsOf e (plus x y) (plus X Y) :=
  fun p q => by
    show x (ix2 p q) + y (ix2 p q) = X (ix2 (e p) q) + Y (ix2 (e p) q)
    rw [hx p q, hy p q]

/-- The layer function of a block of rows is that block of the layer function. -/
theorem rowsOf_layer {a A : Nat} (e : Fin a → Fin A) {h : (⟨2, ![a, 128]⟩ : Shape).Idx → EReal}
    {H : (⟨2, ![A, 128]⟩ : Shape).Idx → EReal} (hh : RowsOf e h H) (W1 : SW.Idx → EReal) (b1 : SB.Idx → EReal)
    (W2 : SW.Idx → EReal) (b2 : SB.Idx → EReal) :
    RowsOf e (mlpLast h W1 b1 W2 b2) (mlpLast H W1 b1 W2 b2) :=
  rowsOf_addRow e (rowsOf_prod e (rowsOf_act e (rowsOf_prod e hh W1) b1 z0) W2) b2

/-! ## The blocks of the arrays -/

section Arrays
variable (V : (c : Dev nD) → (b : Ref sig .tc) → Buf (Elt Ideal) ((c : Thread nD τ).loc b))

/-- The printed index maps, decided over the 25 points: the windows of X, of A and of the two outputs are at block
    (t, 0) at point t, those of the weights and biases at block 0. -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 1) = 0
  ∧ win2_4.index t (0 : Fin 2) = 0 ∧ win2_4.index t (1 : Fin 2) = 0
  ∧ win2_5.index t (0 : Fin 1) = 0
  ∧ win2_6.index t (0 : Fin 2) = t.val ∧ win2_6.index t (1 : Fin 2) = 0
  ∧ win2_7.index t (0 : Fin 2) = t.val ∧ win2_7.index t (1 : Fin 2) = 0 :=
  (by decide +kernel : ∀ t : Fin grid2.N, _)

theorem lt25 (t : Fin cfg2.N) : t.val < 25 := lt_of_lt_of_eq t.isLt N_2

/-- Row p of the block of point t is row 4000·t + p of the array. -/
def rowAt (t : Fin cfg2.N) (p : Fin 4000) : Fin 100000 :=
  ⟨4000 * t.val + p.val, by have := lt25 t; have := p.isLt; omega⟩

/-- The block of X at point t holds rows 4000·t + p of X. -/
theorem blk0_rows (c : Dev nD) (t : Fin cfg2.N) :
    RowsOf (rowAt t) (iblk2 V c 0 t : Vec Ideal S4000x128 .f32)
      (V c (Pipeline.arrRef spec2 0) : S100000x128.Idx → Elt Ideal .f32) := fun p q => by
  obtain ⟨e0, e1, -⟩ := idx_facts t
  unfold iblk2
  rw [View.read_apply]
  show (V c (Pipeline.arrRef spec2 0) : S100000x128.Idx → Elt Ideal .f32) _ = _
  congr 1
  funext a
  apply Fin.ext
  match a with
  | ⟨0, _⟩ => show win2_0.index t 0 * 4000 + 1 * p.val = 4000 * t.val + p.val; rw [e0]; omega
  | ⟨1, _⟩ => show win2_0.index t 1 * 128 + 1 * q.val = q.val; rw [e1]; omega

/-- The block of A at point t holds rows 4000·t + p of A. -/
theorem blk1_rows (c : Dev nD) (t : Fin cfg2.N) :
    RowsOf (rowAt t) (iblk2 V c 1 t : Vec Ideal S4000x128 .f32)
      (V c (Pipeline.arrRef spec2 1) : S100000x128.Idx → Elt Ideal .f32) := fun p q => by
  obtain ⟨-, -, e0, e1, -⟩ := idx_facts t
  unfold iblk2
  rw [View.read_apply]
  show (V c (Pipeline.arrRef spec2 1) : S100000x128.Idx → Elt Ideal .f32) _ = _
  congr 1
  funext a
  apply Fin.ext
  match a with
  | ⟨0, _⟩ => show win2_1.index t 0 * 4000 + 1 * p.val = 4000 * t.val + p.val; rw [e0]; omega
  | ⟨1, _⟩ => show win2_1.index t 1 * 128 + 1 * q.val = q.val; rw [e1]; omega

/-- The block of the first weight matrix is the whole matrix at every point. -/
theorem blk2_eq (c : Dev nD) (t : Fin cfg2.N) :
    (iblk2 V c 2 t : Vec Ideal S128x128 .f32) = (V c (Pipeline.arrRef spec2 2) : S128x128.Idx → Elt Ideal .f32) := by
  obtain ⟨-, -, -, -, e0, e1, -⟩ := idx_facts t
  funext j
  unfold iblk2
  rw [View.read_apply]
  show (V c (Pipeline.arrRef spec2 2) : S128x128.Idx → Elt Ideal .f32) _ = _
  congr 1
  funext a
  apply Fin.ext
  match a with
  | ⟨0, _⟩ => show win2_2.index t 0 * 128 + 1 * (j 0).val = (j 0).val; rw [e0]; omega
  | ⟨1, _⟩ => show win2_2.index t 1 * 128 + 1 * (j 1).val = (j 1).val; rw [e1]; omega

/-- The block of the first bias vector is the whole vector at every point. -/
theorem blk3_eq (c : Dev nD) (t : Fin cfg2.N) :
    (iblk2 V c 3 t : Vec Ideal S128 .f32) = (V c (Pipeline.arrRef spec2 3) : S128.Idx → Elt Ideal .f32) := by
  obtain ⟨-, -, -, -, -, -, e0, -⟩ := idx_facts t
  funext j
  unfold iblk2
  rw [View.read_apply]
  show (V c (Pipeline.arrRef spec2 3) : S128.Idx → Elt Ideal .f32) _ = _
  congr 1
  funext a
  apply Fin.ext
  match a with
  | ⟨0, _⟩ => show win2_3.index t 0 * 128 + 1 * (j 0).val = (j 0).val; rw [e0]; omega

/-- The block of the second weight matrix is the whole matrix at every point. -/
theorem blk4_eq (c : Dev nD) (t : Fin cfg2.N) :
    (iblk2 V c 4 t : Vec Ideal S128x128 .f32) = (V c (Pipeline.arrRef spec2 4) : S128x128.Idx → Elt Ideal .f32) := by
  obtain ⟨-, -, -, -, -, -, -, e0, e1, -⟩ := idx_facts t
  funext j
  unfold iblk2
  rw [View.read_apply]
  show (V c (Pipeline.arrRef spec2 4) : S128x128.Idx → Elt Ideal .f32) _ = _
  congr 1
  funext a
  apply Fin.ext
  match a with
  | ⟨0, _⟩ => show win2_4.index t 0 * 128 + 1 * (j 0).val = (j 0).val; rw [e0]; omega
  | ⟨1, _⟩ => show win2_4.index t 1 * 128 + 1 * (j 1).val = (j 1).val; rw [e1]; omega

/-- The block of the second bias vector is the whole vector at every point. -/
theorem blk5_eq (c : Dev nD) (t : Fin cfg2.N) :
    (iblk2 V c 5 t : Vec Ideal S128 .f32) = (V c (Pipeline.arrRef spec2 5) : S128.Idx → Elt Ideal .f32) := by
  obtain ⟨-, -, -, -, -, -, -, -, -, e0, -⟩ := idx_facts t
  funext j
  unfold iblk2
  rw [View.read_apply]
  show (V c (Pipeline.arrRef spec2 5) : S128.Idx → Elt Ideal .f32) _ = _
  congr 1
  funext a
  apply Fin.ext
  match a with
  | ⟨0, _⟩ => show win2_5.index t 0 * 128 + 1 * (j 0).val = (j 0).val; rw [e0]; omega

/-- Entry (p, q) of the first output's block at point t sits at (4000·t + p, q) of its array. -/
theorem emb6 (t : Fin cfg2.N) (p : Fin 4000) (q : Fin 128) :
    ((cfg2.win 6).blk t).view.emb (ix2 p q : S4000x128.Idx) = (ix2 (rowAt t p) q : S100000x128.Idx) := by
  obtain ⟨-, -, -, -, -, -, -, -, -, -, e0, e1, -⟩ := idx_facts t
  funext a
  apply Fin.ext
  match a with
  | ⟨0, _⟩ => show win2_6.index t 0 * 4000 + 1 * p.val = 4000 * t.val + p.val; rw [e0]; omega
  | ⟨1, _⟩ => show win2_6.index t 1 * 128 + 1 * q.val = q.val; rw [e1]; omega

/-- The same for the second output. -/
theorem emb7 (t : Fin cfg2.N) (p : Fin 4000) (q : Fin 128) :
    ((cfg2.win 7).blk t).view.emb (ix2 p q : S4000x128.Idx) = (ix2 (rowAt t p) q : S100000x128.Idx) := by
  obtain ⟨-, -, -, -, -, -, -, -, -, -, -, -, e0, e1⟩ := idx_facts t
  funext a
  apply Fin.ext
  match a with
  | ⟨0, _⟩ => show win2_7.index t 0 * 4000 + 1 * p.val = 4000 * t.val + p.val; rw [e0]; omega
  | ⟨1, _⟩ => show win2_7.index t 1 * 128 + 1 * q.val = q.val; rw [e1]; omega

/-- Row r of the first output lies in the block of point r / 4000, which is written back. -/
theorem cover6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  let t : Fin cfg2.N := ⟨(i 0).val / 4000, lt_of_lt_of_eq (show (i 0).val / 4000 < 25 by omega) N_2.symm⟩
  have ht : t.val = (i 0).val / 4000 := rfl
  obtain ⟨-, -, -, -, -, -, -, -, -, -, e0, e1, -⟩ := idx_facts t
  refine ⟨t, flush2_6 t, ?_⟩
  show i ∈ ((View.whole main_v79_0).slice (win2_6.rect t)).set
  rw [View.set_slice_whole, Rect.mem_set_unit]
  intro a
  match a with
  | ⟨0, _⟩ => show win2_6.index t 0 * 4000 ≤ (i 0).val ∧ (i 0).val < win2_6.index t 0 * 4000 + 4000; rw [e0, ht]; omega
  | ⟨1, _⟩ => show win2_6.index t 1 * 128 ≤ (i 1).val ∧ (i 1).val < win2_6.index t 1 * 128 + 128; rw [e1]; omega

/-- The same for the second output. -/
theorem cover7 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  let t : Fin cfg2.N := ⟨(i 0).val / 4000, lt_of_lt_of_eq (show (i 0).val / 4000 < 25 by omega) N_2.symm⟩
  have ht : t.val = (i 0).val / 4000 := rfl
  obtain ⟨-, -, -, -, -, -, -, -, -, -, -, -, e0, e1⟩ := idx_facts t
  refine ⟨t, flush2_7 t, ?_⟩
  show i ∈ ((View.whole main_v79_1).slice (win2_7.rect t)).set
  rw [View.set_slice_whole, Rect.mem_set_unit]
  intro a
  match a with
  | ⟨0, _⟩ => show win2_7.index t 0 * 4000 ≤ (i 0).val ∧ (i 0).val < win2_7.index t 0 * 4000 + 4000; rw [e0, ht]; omega
  | ⟨1, _⟩ => show win2_7.index t 1 * 128 ≤ (i 1).val ∧ (i 1).val < win2_7.index t 1 * 128 + 128; rw [e1]; omega

/-! ## From blocks to the arrays -/

/-- The layer function of the six arrays as the region finds them. -/
abbrev layer (c : Dev nD) : SN.Idx → EReal :=
  mlpLast (plus (V c (Pipeline.arrRef spec2 0)) (V c (Pipeline.arrRef spec2 1))) (V c (Pipeline.arrRef spec2 2))
    (V c (Pipeline.arrRef spec2 3)) (V c (Pipeline.arrRef spec2 4)) (V c (Pipeline.arrRef spec2 5))

/-- The layer function of the blocks at point t, at (p, q), is the layer function of the arrays at (4000·t + p, q). -/
theorem block_layer (c : Dev nD) (t : Fin cfg2.N) (p : Fin 4000) (q : Fin 128) :
    mlpLast (plus (iblk2 V c 0 t : Vec Ideal S4000x128 .f32) (iblk2 V c 1 t : Vec Ideal S4000x128 .f32))
        (iblk2 V c 2 t : Vec Ideal S128x128 .f32) (iblk2 V c 3 t : Vec Ideal S128 .f32)
        (iblk2 V c 4 t : Vec Ideal S128x128 .f32) (iblk2 V c 5 t : Vec Ideal S128 .f32) (ix2 p q)
      = layer V c (ix2 (rowAt t p) q) := by
  rw [blk2_eq V c t, blk3_eq V c t, blk4_eq V c t, blk5_eq V c t]
  exact rowsOf_layer (rowAt t) (rowsOf_plus (rowAt t) (blk0_rows V c t) (blk1_rows V c t)) _ _ _ _ p q

/-- What point t writes back to the first output is its block of the layer function of the arrays. -/
theorem flushed6_eq (c : Dev nD) (t : Fin cfg2.N) :
    (dat2 (F := Ideal) V c).flushed 6 t = ((cfg2.win 6).blk t).view.read (Elt Ideal) (layer V c) := by
  show (cfg2.win 6).cut (grid2.coords t) ((dat2 (F := Ideal) V c).after 6 t) = _
  rw [after2_6, out6_eq]
  funext j
  obtain ⟨p, q, rfl⟩ : ∃ (p : Fin 4000) (q : Fin 128), j = ix2 p q := ⟨j 0, j 1, eq_ix2 j⟩
  show _ = layer V c (((cfg2.win 6).blk t).view.emb (ix2 p q : S4000x128.Idx))
  exact (block_layer V c t p q).trans (congrArg (layer V c) (emb6 t p q).symm)

/-- The same for the second output. -/
theorem flushed7_eq (c : Dev nD) (t : Fin cfg2.N) :
    (dat2 (F := Ideal) V c).flushed 7 t = ((cfg2.win 7).blk t).view.read (Elt Ideal) (layer V c) := by
  show (cfg2.win 7).cut (grid2.coords t) ((dat2 (F := Ideal) V c).after 7 t) = _
  rw [after2_7, out7_eq]
  funext j
  obtain ⟨p, q, rfl⟩ : ∃ (p : Fin 4000) (q : Fin 128), j = ix2 p q := ⟨j 0, j 1, eq_ix2 j⟩
  show _ = layer V c (((cfg2.win 7).blk t).view.emb (ix2 p q : S4000x128.Idx))
  exact (block_layer V c t p q).trans (congrArg (layer V c) (emb7 t p q).symm)

/-- THE FIRST OUTPUT ARRAY after the region: the layer function of the six input arrays at entry. -/
theorem arr6 (c : Dev nD) : (dat2 (F := Ideal) V c).arrAt 6 cfg2.N
    = mlpLast (plus (V c (Pipeline.arrRef spec2 0)) (V c (Pipeline.arrRef spec2 1))) (V c (Pipeline.arrRef spec2 2))
        (V c (Pipeline.arrRef spec2 3)) (V c (Pipeline.arrRef spec2 4)) (V c (Pipeline.arrRef spec2 5)) :=
  (dat2 (F := Ideal) V c).arrAt_eq_of_cover 6 (layer V c) (fun t _ => flushed6_eq V c t) cover6

/-- THE SECOND OUTPUT ARRAY after the region: the same function. -/
theorem arr7 (c : Dev nD) : (dat2 (F := Ideal) V c).arrAt 7 cfg2.N
    = mlpLast (plus (V c (Pipeline.arrRef spec2 0)) (V c (Pipeline.arrRef spec2 1))) (V c (Pipeline.arrRef spec2 2))
        (V c (Pipeline.arrRef spec2 3)) (V c (Pipeline.arrRef spec2 4)) (V c (Pipeline.arrRef spec2 5)) :=
  (dat2 (F := Ideal) V c).arrAt_eq_of_cover 7 (layer V c) (fun t _ => flushed7_eq V c t) cover7

end Arrays

end Cert.Gin.Region2

end
-- ==== Proof.Chain2.lean ====
/-
  Layer 2 of the kernel program, from the buffer contents before its host stretch to the contents after its region:
  the stretch computes the aggregate of the previous layer's output along the sorted edge list and cuts out the layer's
  weights; the region, block by block, leaves the layer function of those six arrays in both of its output arrays.
-/
import proofs.«125213_j28020366639701_2_alg».proof.Proof.Host2
import proofs.«125213_j28020366639701_2_alg».proof.Proof.Region2
import proofs.«125213_j28020366639701_2_alg».proof.Proof.Cols
import proofs.«125213_j28020366639701_2_alg».proof.Proof.LayerOf

noncomputable section

namespace Cert.Gin.K

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

set_option maxHeartbeats 2000000 in
/-- If the layer starts from the previous layer's output X (in both of its copies), the sorted index lists S and D and
    the stacked weight arguments as launched, it ends with the layer function of X in both of its output arrays. -/
theorem step2 (X : FVec Ideal S100000x128 .f32) (S D : IVec S1600000 32)
    (hX0 : Gen.W6 m ρ c (Proc.devRef .tc main_v59_0) = X) (hX1 : Gen.W6 m ρ c (Proc.devRef .tc main_v59_1) = X)
    (h11 : Gen.W6 m ρ c (Proc.devRef .tc main_v11) = S) (h18 : Gen.W6 m ρ c (Proc.devRef .tc main_v18) = D)
    (ha2 : Gen.W6 m ρ c (Proc.devRef .tc main_arg2) = m ((c.tc : Thread nD τ).loc main_arg2))
    (ha3 : Gen.W6 m ρ c (Proc.devRef .tc main_arg3) = m ((c.tc : Thread nD τ).loc main_arg3))
    (ha4 : Gen.W6 m ρ c (Proc.devRef .tc main_arg4) = m ((c.tc : Thread nD τ).loc main_arg4))
    (ha5 : Gen.W6 m ρ c (Proc.devRef .tc main_arg5) = m ((c.tc : Thread nD τ).loc main_arg5)) :
    Gen.W8 m ρ c (Proc.devRef .tc main_v79_0)
        = Cert.Gin.layerLast scatter_S100000x128_S1600000x1_S1600000x128_1_0_0_1_wf gather_S100000x128_S1600000x1_S1600000x128_1_0_n_n_0_1_1128_wf Zk X (wrapCol S) (col D) (w1_2 m c) (b1_2 m c) (w2_2 m c) (b2_2 m c)
    ∧ Gen.W8 m ρ c (Proc.devRef .tc main_v79_1)
        = Cert.Gin.layerLast scatter_S100000x128_S1600000x1_S1600000x128_1_0_0_1_wf gather_S100000x128_S1600000x1_S1600000x128_1_0_n_n_0_1_1128_wf Zk X (wrapCol S) (col D) (w1_2 m c) (b1_2 m c) (w2_2 m c) (b2_2 m c) := by
  have e0 : Gen.V7 m ρ c (Pipeline.arrRef spec2 0) = X := (Host.keep2_v59_0 (Gen.W6 m ρ c)).trans hX0
  have e1 : Gen.V7 m ρ c (Pipeline.arrRef spec2 1)
      = Cert.Gin.agg scatter_S100000x128_S1600000x1_S1600000x128_1_0_0_1_wf gather_S100000x128_S1600000x1_S1600000x128_1_0_n_n_0_1_1128_wf Zk X (wrapCol S) (col D) :=
    (Host.agg_2 (Gen.W6 m ρ c)).trans (by rw [hX1, h11, h18])
  have e2 : Gen.V7 m ρ c (Pipeline.arrRef spec2 2) = w1_2 m c := (Host.w1_2 (Gen.W6 m ρ c)).trans (by rw [ha2])
  have e3 : Gen.V7 m ρ c (Pipeline.arrRef spec2 3) = b1_2 m c := (Host.b1_2 (Gen.W6 m ρ c)).trans (by rw [ha3])
  have e4 : Gen.V7 m ρ c (Pipeline.arrRef spec2 4) = w2_2 m c := (Host.w2_2 (Gen.W6 m ρ c)).trans (by rw [ha4])
  have e5 : Gen.V7 m ρ c (Pipeline.arrRef spec2 5) = b2_2 m c := (Host.b2_2 (Gen.W6 m ρ c)).trans (by rw [ha5])
  constructor
  · refine (Gen.W8_arr m ρ c 6).trans ((Cert.Gin.Region2.arr6 (Gen.V7 m ρ) c).trans ?_)
    exact Cert.Gin.layerLast_of _ _ e0 e1 e2 e3 e4 e5
  · refine (Gen.W8_arr m ρ c 7).trans ((Cert.Gin.Region2.arr7 (Gen.V7 m ρ) c).trans ?_)
    exact Cert.Gin.layerLast_of _ _ e0 e1 e2 e3 e4 e5

end Cert.Gin.K

end
-- ==== Proof.LibSegPerm.lean ====
/-
  A segment sum does not depend on the order of its edges.

  Generic in the extents: N segments (rows of the operand), R edges, C columns.

  * the element an added row lands on depends on the scatter-index column only at that row's own entry, and on the
    row's column coordinate;
  * hence an add-scatter of [R, C] updates into an [N, C] operand at scatter indices [R, 1] is unchanged when the updates'
    rows and the index column are re-ordered by one and the same permutation of the R edges (addition on the extended
    reals is commutative and associative; nothing needs to be finite);
  * hence the segment sum of gathered rows is unchanged when the source-index column and the target-index column are
    re-ordered by one permutation;
  * the second result of a two-operand stable sort of a rank-1 key list carrying the position list 0, 1, …, R − 1 lists
    a permutation of the positions, whatever the comparator is;
  * an entry gather of a rank-1 list through such a position list (wrapped when negative as a signed word, spread to a
    column) reads the list at the permuted position.
-/
import proofs.«125213_j28020366639701_2_alg».proof.Proof.LibSegSum
import Idealize.ShloMosaic.Lib.SortFacts

noncomputable section

open scoped BigOperators

namespace Cert.LibSegPerm

open Idealize.ShloMosaic Idealize.ShloMosaic.ValueIdx Cert.LibSegSum

/-! ## Where an added row lands, as a function of the index column -/

/-- The window start of update (e, k) on the row axis is the signed index of edge e. -/
theorem addRows_start_zero {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) :
    (addRowsDims N R C wf).start (ix2 e k) idx 0 = (idx (at0 e)).toInt := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  unfold ScatterDims.start
  rw [dif_pos (show (0 : Fin 2) ∈ (addRowsDims N R C wf).scatterDimsToOperandDims from List.mem_singleton.mpr rfl), hsi]

/-- The window start of update (e, k) on the column axis is 0. -/
theorem addRows_start_one {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) :
    (addRowsDims N R C wf).start (ix2 e k) idx 1 = 0 := by
  unfold ScatterDims.start
  rw [dif_neg (show (1 : Fin 2) ∉ (addRowsDims N R C wf).scatterDimsToOperandDims from
    (by decide : (1 : Fin 2) ∉ ([0] : List (Fin 2))))]

/-- The window coordinate of update (e, k) on the row axis is 0. -/
theorem addRows_window_zero {N R C : Nat}
    (wf : ScatterDims.WF ⟨2, ![N, C]⟩ ⟨2, ![R, 1]⟩ ⟨2, ![R, C]⟩ [1] [0] [0] 1) (e : Fin R) (k : Fin C) :
    (addRowsDims N R C wf).window (ix2 e k) 0 = 0 := by
  unfold ScatterDims.window
  rw [dif_neg (show (0 : Fin 2) ∉ (addRowsDims N R C wf).sKept from
    (by decide : (0 : Fin 2) ∉ (List.finRange 2).filter (· ∉ ([0] : List (Fin 2)))))]

/-- The window coordinate of update (e, k) on the column axis is k. -/
theorem addRows_window_one {N R C : Nat}
    (wf : ScatterDims.WF ⟨2, ![N, C]⟩ ⟨2, ![R, 1]⟩ ⟨2, ![R, C]⟩ [1] [0] [0] 1) (e : Fin R) (k : Fin C) :
    (addRowsDims N R C wf).window (ix2 e k) 1 = k.val := by
  unfold ScatterDims.window
  rw [dif_pos (show (1 : Fin 2) ∈ (addRowsDims N R C wf).sKept from
    (by decide : (1 : Fin 2) ∈ (List.finRange 2).filter (· ∉ ([0] : List (Fin 2)))))]
  rfl

/-- Two updates in the same column whose edges carry the same index word (in two index columns) land on the same
    element, or are both dropped. -/
theorem addRows_resultIdx_congr {N R C : Nat}
    (wf : ScatterDims.WF ⟨2, ![N, C]⟩ ⟨2, ![R, 1]⟩ ⟨2, ![R, C]⟩ [1] [0] [0] 1)
    (idx idx' : IVec ⟨2, ![R, 1]⟩ 32) (e e' : Fin R) (k : Fin C) (h : idx' (at0 e) = idx (at0 e')) :
    (addRowsDims N R C wf).resultIdx? (ix2 e k) idx' = (addRowsDims N R C wf).resultIdx? (ix2 e' k) idx := by
  have hs : (addRowsDims N R C wf).start (ix2 e k) idx' = (addRowsDims N R C wf).start (ix2 e' k) idx := by
    funext a
    match a with
    | ⟨0, _⟩ => exact (addRows_start_zero wf idx' e k).trans ((congrArg BitVec.toInt h).trans (addRows_start_zero wf idx e' k).symm)
    | ⟨1, _⟩ => exact (addRows_start_one wf idx' e k).trans (addRows_start_one wf idx e' k).symm
  have hw : (addRowsDims N R C wf).window (ix2 e k) = (addRowsDims N R C wf).window (ix2 e' k) := by
    funext a
    match a with
    | ⟨0, _⟩ => exact (addRows_window_zero wf e k).trans (addRows_window_zero wf e' k).symm
    | ⟨1, _⟩ => exact (addRows_window_one wf e k).trans (addRows_window_one wf e' k).symm
  unfold ScatterDims.resultIdx?
  simp only [hs, hw]

/-! ## Re-ordering the edges -/

/-- A permutation of the R edges acting on the rows of the [R, C] index set. -/
def rowPerm {R C : Nat} (σ : Equiv.Perm (Fin R)) : Equiv.Perm (⟨2, ![R, C]⟩ : Shape).Idx where
  toFun j := ix2 (σ (j 0)) (j 1)
  invFun j := ix2 (σ.symm (j 0)) (j 1)
  left_inv j := by
    obtain ⟨e, k, rfl⟩ : ∃ (e : Fin R) (k : Fin C), j = ix2 e k := ⟨j 0, j 1, eq_ix2 j⟩
    show ix2 (σ.symm (σ e)) k = ix2 e k
    rw [Equiv.symm_apply_apply]
  right_inv j := by
    obtain ⟨e, k, rfl⟩ : ∃ (e : Fin R) (k : Fin C), j = ix2 e k := ⟨j 0, j 1, eq_ix2 j⟩
    show ix2 (σ (σ.symm e)) k = ix2 e k
    rw [Equiv.apply_symm_apply]

theorem rowPerm_ix2 {R C : Nat} (σ : Equiv.Perm (Fin R)) (e : Fin R) (k : Fin C) :
    rowPerm σ (ix2 e k) = ix2 (σ e) k := rfl

/-- An add-scatter is unchanged when the update rows and the index column are re-ordered by one permutation σ of the
    edges: each sum over the updates landing on an element is re-indexed along (e, k) ↦ (σ e, k). -/
theorem scatterAdd_perm {N R C : Nat}
    (wfS : ScatterDims.WF ⟨2, ![N, C]⟩ ⟨2, ![R, 1]⟩ ⟨2, ![R, C]⟩ [1] [0] [0] 1)
    (Z : FVec Ideal ⟨2, ![N, C]⟩ .f32) (U U' : FVec Ideal ⟨2, ![R, C]⟩ .f32) (di di' : IVec ⟨2, ![R, 1]⟩ 32)
    (σ : Equiv.Perm (Fin R))
    (hu : ∀ (e : Fin R) (k : Fin C), U' (ix2 e k) = U (ix2 (σ e) k))
    (hd : ∀ e : Fin R, di' (at0 e) = di (at0 (σ e))) :
    Host.scatterAdd (addRowsDims N R C wfS) Z di' U' = Host.scatterAdd (addRowsDims N R C wfS) Z di U := by
  funext i
  simp only [Host.scatterAdd, Ideal.hostScatterAdd_def, Ideal.hostScatterAdd]
  refine congrArg (Z i + ·) ?_
  refine Finset.sum_equiv (rowPerm σ) (fun j => ?_) (fun j _ => ?_)
  · obtain ⟨e, k, rfl⟩ : ∃ (e : Fin R) (k : Fin C), j = ix2 e k := ⟨j 0, j 1, eq_ix2 j⟩
    rw [rowPerm_ix2]
    simp only [Finset.mem_filter, Finset.mem_univ, true_and]
    rw [addRows_resultIdx_congr wfS di di' e (σ e) k (hd e)]
  · obtain ⟨e, k, rfl⟩ : ∃ (e : Fin R) (k : Fin C), j = ix2 e k := ⟨j 0, j 1, eq_ix2 j⟩
    rw [rowPerm_ix2]
    exact hu e k

/-- The segment sum of gathered rows is unchanged when the source-index column and the target-index column are
    re-ordered by one permutation of the edges. -/
theorem segsum_perm {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (Z X : FVec Ideal ⟨2, ![N, C]⟩ .f32) (si di si' di' : IVec ⟨2, ![R, 1]⟩ 32) (σ : Equiv.Perm (Fin R))
    (hs : ∀ e : Fin R, si' (at0 e) = si (at0 (σ e))) (hd : ∀ e : Fin R, di' (at0 e) = di (at0 (σ e))) :
    Host.scatterAdd (addRowsDims N R C wfS) Z di' (Host.gather (rowsDims N R C wfG) X si')
      = Host.scatterAdd (addRowsDims N R C wfS) Z di (Host.gather (rowsDims N R C wfG) X si) := by
  refine scatterAdd_perm wfS Z _ _ di di' σ (fun e k => ?_) hd
  rw [gather_rows_apply hN, gather_rows_apply hN, hs e]

/-! ## The order a stable two-operand sort of a list carrying its positions returns -/

/-- On a rank-1 shape the second result of a two-operand sort along axis 0 reads the second operand through one self-map
    of the positions: the stable sorting map of the comparator on the pairs of the two lists' entries. -/
theorem sort2_rank1_snd {R : Nat} {α β : Type} (cmp : α × β → α × β → BitVec 1)
    (x : (⟨1, ![R]⟩ : Shape).Idx → α) (y : (⟨1, ![R]⟩ : Shape).Idx → β) (j : (⟨1, ![R]⟩ : Shape).Idx) :
    (Host.sort2 ⟨1, ![R]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The order returned by a stable sort of a key list carrying the position list 0, 1, …, R − 1 is the word list of a
    permutation of the R positions, whatever the comparator and the keys are: a stable sort re-arranges, it neither
    drops nor repeats a position. -/
theorem argsort_perm {R : Nat} (cmp : BitVec 32 × BitVec 32 → BitVec 32 × BitVec 32 → BitVec 1)
    (keys : IVec ⟨1, ![R]⟩ 32) :
    ∃ σ : Equiv.Perm (Fin R), ∀ e : Fin R,
      (Host.sort2 ⟨1, ![R]⟩ 0 cmp keys (iotaInDim ⟨1, ![R]⟩ 32 0)).2 (ix1 e) = BitVec.ofNat 32 (σ e).val := by
  let before : Fin R → Fin R → Bool := fun k k' =>
    cmp (keys (Shape.Idx.ofFin k), iotaInDim ⟨1, ![R]⟩ 32 0 (Shape.Idx.ofFin k))
      (keys (Shape.Idx.ofFin k'), iotaInDim ⟨1, ![R]⟩ 32 0 (Shape.Idx.ofFin k')) == 1#1
  refine ⟨Equiv.ofBijective (sortedFrom before) ⟨sortedFrom_injective before, sortedFrom_surjective before⟩,
    fun e => ?_⟩
  rw [sort2_rank1_snd]
  rfl

/-! ## A list gathered through the order -/

/-- A natural number below 2 ^ 31, as a 32-bit word read signed, is itself. -/
theorem toInt_ofNat_of_lt {n : Nat} (h : n < 2 ^ 31) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

/-- A rank-1 list gathered through a position list ord = σ (as words; fewer than 2 ^ 31 positions), the order wrapped
    when negative as a signed word and spread to a column, reads the list at position σ e: the position word is not
    negative, so the wrap leaves it, and it is in range, so the clamp leaves it. -/
theorem gather_order_apply {R : Nat} (hR0 : 0 < R) (hR : R < 2 ^ 31)
    (wfV : GatherDims.WF ⟨1, ![R]⟩ ⟨2, ![R, 1]⟩ ⟨1, ![R]⟩ [] [0] [] [0] [] 1 ![1])
    (h0 : (⟨0, ![]⟩ : Shape).BroadcastsInDim ⟨1, ![R]⟩ ![])
    (h1 : (⟨1, ![R]⟩ : Shape).BroadcastsInDim ⟨2, ![R, 1]⟩ ![0])
    (v ord a : IVec ⟨1, ![R]⟩ 32) (σ : Fin R → Fin R)
    (hord : ∀ e : Fin R, ord (ix1 e) = BitVec.ofNat 32 (σ e).val) (e : Fin R) :
    Host.gather (entriesDims R R wfV) v
        (broadcastInDim ⟨2, ![R, 1]⟩ ![0] h1
          (select (cmpi .slt ord (broadcastInDim ⟨1, ![R]⟩ ![] h0 (constantI ⟨0, ![]⟩ 32 0#32))) a ord)) (ix1 e)
      = v (ix1 (σ e)) := by
  have hlt : (σ e).val < 2 ^ 31 := lt_trans (σ e).isLt hR
  have hw : (select (cmpi .slt ord (broadcastInDim ⟨1, ![R]⟩ ![] h0 (constantI ⟨0, ![]⟩ 32 0#32))) a ord) (ix1 e)
      = BitVec.ofNat 32 (σ e).val := by
    show Scalar.select (IntOp.cmpi .slt (ord (ix1 e)) 0#32) (a (ix1 e)) (ord (ix1 e)) = _
    rw [wrap_of_nonneg _ _ (by rw [hord e, toInt_ofNat_of_lt hlt]; exact Int.natCast_nonneg _), hord e]
  rw [gather_entries_apply hR0, bcast_unit_apply, hw]
  refine congrArg v (congrArg ix1 (Fin.ext ?_))
  show min (BitVec.ofNat 32 (σ e).val).toInt.toNat (R - 1) = (σ e).val
  rw [toInt_ofNat_of_lt hlt, Int.toNat_natCast]
  have := (σ e).isLt
  omega

end Cert.LibSegPerm

end
-- ==== Proof.PermCols.lean ====
/-
  The sorted edge list is the edge list re-arranged, so it gives every array the same segment sum.

  The first host stretch sorts the targets (a stable argsort), and gathers the sources and the targets through the
  resulting order.  The order is a permutation σ of the edge positions, so sorted source e is source σ(e) and sorted
  target e is target σ(e); wrapping a negative index and spreading a list to a column act entry by entry.  A segment
  sum is a sum over the edges, so it does not see the re-arrangement.
-/
import proofs.«125213_j28020366639701_2_alg».proof.Proof.Host0
import proofs.«125213_j28020366639701_2_alg».proof.Proof.Cols
import proofs.«125213_j28020366639701_2_alg».proof.Proof.LibSegPerm

noncomputable section

namespace Cert.Gin.K

open Idealize.ShloMosaic Idealize.ShloMosaic.TcCoe Idealize.SL.Sem Idealize.ShloMosaic.ValueIdx
open Cert.KernelIdeal Cert.KernelIdeal.Facts₀ Cert.KernelIdeal.Facts Cert.LibSegSum Cert.LibSegPerm

/-- A wrapped column read at edge e: the entry of the list at e, wrapped. -/
theorem wrapCol_at (v : IVec S1600000 32) (e : Fin 1600000) :
    wrapCol v (at0 e)
      = Scalar.select (IntOp.cmpi .slt (v (ix1 e)) 0#32) (IntOp.addi (v (ix1 e)) 100000#32) (v (ix1 e)) :=
  bcast_unit_apply bcast_S1600000_S1600000x1_0 _ e

/-- A column read at edge e: the entry of the list at e. -/
theorem col_at (v : IVec S1600000 32) (e : Fin 1600000) : col v (at0 e) = v (ix1 e) :=
  bcast_unit_apply bcast_S1600000_S1600000x1_0 v e

variable (m : (ℓ : Loc nD τ sig) → Buf (Elt Ideal) ℓ) (ρ : Dev nD → PrngReg) (c : Dev nD)

/-- The sources as the sort finds them: row 0 of the edge list (neither the slicing stretch nor the sort writes an
    argument or the other row). -/
theorem W2_v1 : Gen.W2 m ρ c (Proc.devRef .tc main_v1) = srcK m c :=
  (Host.keep01_v1 (Gen.W1 m ρ c)).trans (Host.src_0 (Gen.W0 m ρ c))

/-- The targets as the sort finds them: row 1 of the edge list. -/
theorem W2_v3 : Gen.W2 m ρ c (Proc.devRef .tc main_v3) = dstK m c :=
  (Host.keep01_v3 (Gen.W1 m ρ c)).trans (Host.dst_0 (Gen.W0 m ρ c))

/-- The order: the second result of sorting the targets together with the positions 0, 1, 2, …. -/
theorem W2_v4 : Gen.W2 m ρ c (Proc.devRef .tc main_v4)
    = (Host.sort2 S1600000 0 comparator_i32_i32_d0 (dstK m c) (iotaInDim S1600000 32 0)).2 :=
  (Host.order_0 (Gen.W1 m ρ c)).trans
    (by rw [show Gen.W1 m ρ c (Proc.devRef .tc main_v3) = dstK m c from Host.dst_0 (Gen.W0 m ρ c)])

/-- The sorted columns are the columns re-arranged by one permutation of the edges. -/
theorem cols_perm : ∃ σ : Equiv.Perm (Fin 1600000),
    (∀ e : Fin 1600000, wrapCol (Gen.W3 m ρ c (Proc.devRef .tc main_v11)) (at0 e) = wrapCol (srcK m c) (at0 (σ e)))
    ∧ (∀ e : Fin 1600000, col (Gen.W3 m ρ c (Proc.devRef .tc main_v18)) (at0 e) = col (dstK m c) (at0 (σ e))) := by
  obtain ⟨σ, hσ⟩ := argsort_perm comparator_i32_i32_d0 (dstK m c)
  have h11 : ∀ e : Fin 1600000, Gen.W3 m ρ c (Proc.devRef .tc main_v11) (ix1 e) = srcK m c (ix1 (σ e)) := fun e => by
    rw [show Gen.W3 m ρ c (Proc.devRef .tc main_v11) = _ from Host.ssrc_0 (Gen.W2 m ρ c), W2_v1, W2_v4]
    exact gather_order_apply (by norm_num) (by norm_num) gather_S1600000_S1600000x1_S1600000_n_0_n_n_0_1_1_wf
      bcast_S_S1600000 bcast_S1600000_S1600000x1_0 (srcK m c) _ _ σ hσ e
  have h18 : ∀ e : Fin 1600000, Gen.W3 m ρ c (Proc.devRef .tc main_v18) (ix1 e) = dstK m c (ix1 (σ e)) := fun e => by
    rw [show Gen.W3 m ρ c (Proc.devRef .tc main_v18) = _ from Host.sdst_0 (Gen.W2 m ρ c), W2_v3, W2_v4]
    exact gather_order_apply (by norm_num) (by norm_num) gather_S1600000_S1600000x1_S1600000_n_0_n_n_0_1_1_wf
      bcast_S_S1600000 bcast_S1600000_S1600000x1_0 (dstK m c) _ _ σ hσ e
  exact ⟨σ, fun e => by rw [wrapCol_at, wrapCol_at, h11 e], fun e => by rw [col_at, col_at, h18 e]⟩

/-- Along the sorted edge list every array has the segment sum it has along the edge list. -/
theorem agg_sorted (Y : FVec Ideal S100000x128 .f32) :
    Cert.Gin.agg scatter_S100000x128_S1600000x1_S1600000x128_1_0_0_1_wf gather_S100000x128_S1600000x1_S1600000x128_1_0_n_n_0_1_1128_wf
        Zk Y (wrapCol (Gen.W3 m ρ c (Proc.devRef .tc main_v11))) (col (Gen.W3 m ρ c (Proc.devRef .tc main_v18)))
      = Cert.Gin.agg scatter_S100000x128_S1600000x1_S1600000x128_1_0_0_1_wf gather_S100000x128_S1600000x1_S1600000x128_1_0_n_n_0_1_1128_wf
        Zk Y (wrapCol (srcK m c)) (col (dstK m c)) := by
  obtain ⟨σ, h1, h2⟩ := cols_perm m ρ c
  exact segsum_perm (by norm_num) _ _ Zk Y _ _ _ _ σ h1 h2

end Cert.Gin.K

end
-- ==== Proof.Net3.lean ====
/-
  The three layers composed, and the one fact about the edge list the comparison of the two programs needs: the
  network depends on the two index columns only through the segment sum they define, so two pairs of columns that give
  every array the same segment sum give the same network.
-/
import proofs.«125213_j28020366639701_2_alg».proof.Proof.Net

noncomputable section

namespace Cert.Gin

open Idealize.ShloMosaic Idealize.ShloMosaic.ValueIdx Cert.Layer Cert.LibSegSum

variable (wfS : ScatterDims.WF SN SE SU [1] [0] [0] 1) (wfG : GatherDims.WF SN SE SU [1] [0] [] [0] [] 1 ![1, 128])

/-- Two inner layers and the last one, each with its own weights, all along the same edge list. -/
def net3 (Z X : FVec Ideal SN .f32) (si di : IVec SE 32)
    (W10 : SW.Idx → EReal) (b10 : SB.Idx → EReal) (W20 : SW.Idx → EReal) (b20 : SB.Idx → EReal)
    (W11 : SW.Idx → EReal) (b11 : SB.Idx → EReal) (W21 : SW.Idx → EReal) (b21 : SB.Idx → EReal)
    (W12 : SW.Idx → EReal) (b12 : SB.Idx → EReal) (W22 : SW.Idx → EReal) (b22 : SB.Idx → EReal) : SN.Idx → EReal :=
  layerLast wfS wfG Z
    (layerRelu wfS wfG Z (layerRelu wfS wfG Z X si di W10 b10 W20 b20) si di W11 b11 W21 b21)
    si di W12 b12 W22 b22

/-- The network reads the index columns only through the segment sum. -/
theorem net3_congr (Z X : FVec Ideal SN .f32) (si di si' di' : IVec SE 32)
    (h : ∀ Y : FVec Ideal SN .f32, agg wfS wfG Z Y si di = agg wfS wfG Z Y si' di')
    (W10 : SW.Idx → EReal) (b10 : SB.Idx → EReal) (W20 : SW.Idx → EReal) (b20 : SB.Idx → EReal)
    (W11 : SW.Idx → EReal) (b11 : SB.Idx → EReal) (W21 : SW.Idx → EReal) (b21 : SB.Idx → EReal)
    (W12 : SW.Idx → EReal) (b12 : SB.Idx → EReal) (W22 : SW.Idx → EReal) (b22 : SB.Idx → EReal) :
    net3 wfS wfG Z X si di W10 b10 W20 b20 W11 b11 W21 b21 W12 b12 W22 b22
      = net3 wfS wfG Z X si' di' W10 b10 W20 b20 W11 b11 W21 b21 W12 b12 W22 b22 := by
  unfold net3 layerLast layerRelu
  rw [h, h, h]

end Cert.Gin

end
-- ==== Proof.KValue.lean ====
/-
  The kernel program's result as one function of its arguments: the three layers chained — each layer's region finds
  the previous layer's output, the sorted index lists and the stacked weights where the earlier stretches and regions
  left them (a region writes only its own arrays, a stretch only its own results) — and then the sorted edge list
  replaced by the edge list itself, which changes no segment sum.
-/
import proofs.«125213_j28020366639701_2_alg».proof.Proof.Chain0
import proofs.«125213_j28020366639701_2_alg».proof.Proof.Chain1
import proofs.«125213_j28020366639701_2_alg».proof.Proof.Chain2
import proofs.«125213_j28020366639701_2_alg».proof.Proof.PermCols
import proofs.«125213_j28020366639701_2_alg».proof.Proof.Net3

noncomputable section

namespace Cert.Gin.K

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-- The returned array after the whole run: the three-layer network of the node features along the edge list, with the
    weights cut out of the stacked arguments. -/
theorem kernel_value :
    Gen.W8 m ρ c (Proc.devRef .tc main_v79_0)
      = Cert.Gin.net3 scatter_S100000x128_S1600000x1_S1600000x128_1_0_0_1_wf gather_S100000x128_S1600000x1_S1600000x128_1_0_n_n_0_1_1128_wf Zk (m ((c.tc : Thread nD τ).loc main_arg0)) (wrapCol (srcK m c)) (col (dstK m c))
          (w1_0 m c) (b1_0 m c) (w2_0 m c) (b2_0 m c) (w1_1 m c) (b1_1 m c) (w2_1 m c) (b2_1 m c)
          (w1_2 m c) (b1_2 m c) (w2_2 m c) (b2_2 m c) := by
  obtain ⟨h0a, h0b⟩ := step0 m ρ c
  -- region 0 writes only its own arrays
  have k11_4 : Gen.W4 m ρ c (Proc.devRef .tc main_v11) = Gen.W3 m ρ c (Proc.devRef .tc main_v11) := Gen.W4_of_ne m ρ c main_v11 (by decide)
  have k18_4 : Gen.W4 m ρ c (Proc.devRef .tc main_v18) = Gen.W3 m ρ c (Proc.devRef .tc main_v18) := Gen.W4_of_ne m ρ c main_v18 (by decide)
  have ka2_4 : Gen.W4 m ρ c (Proc.devRef .tc main_arg2) = m ((c.tc : Thread nD τ).loc main_arg2) := (Gen.W4_of_ne m ρ c main_arg2 (by decide)).trans (W3_arg2 m ρ c)
  have ka3_4 : Gen.W4 m ρ c (Proc.devRef .tc main_arg3) = m ((c.tc : Thread nD τ).loc main_arg3) := (Gen.W4_of_ne m ρ c main_arg3 (by decide)).trans (W3_arg3 m ρ c)
  have ka4_4 : Gen.W4 m ρ c (Proc.devRef .tc main_arg4) = m ((c.tc : Thread nD τ).loc main_arg4) := (Gen.W4_of_ne m ρ c main_arg4 (by decide)).trans (W3_arg4 m ρ c)
  have ka5_4 : Gen.W4 m ρ c (Proc.devRef .tc main_arg5) = m ((c.tc : Thread nD τ).loc main_arg5) := (Gen.W4_of_ne m ρ c main_arg5 (by decide)).trans (W3_arg5 m ρ c)
  obtain ⟨h1a, h1b⟩ := step1 m ρ c _ _ _ h0a h0b k11_4 k18_4 ka2_4 ka3_4 ka4_4 ka5_4
  -- the second stretch and region 1 write only their own results and arrays
  have k11_6 : Gen.W6 m ρ c (Proc.devRef .tc main_v11) = Gen.W3 m ρ c (Proc.devRef .tc main_v11) :=
    (Gen.W6_of_ne m ρ c main_v11 (by decide)).trans ((Host.keep1_v11 (Gen.W4 m ρ c)).trans k11_4)
  have k18_6 : Gen.W6 m ρ c (Proc.devRef .tc main_v18) = Gen.W3 m ρ c (Proc.devRef .tc main_v18) :=
    (Gen.W6_of_ne m ρ c main_v18 (by decide)).trans ((Host.keep1_v18 (Gen.W4 m ρ c)).trans k18_4)
  have ka2_6 : Gen.W6 m ρ c (Proc.devRef .tc main_arg2) = m ((c.tc : Thread nD τ).loc main_arg2) :=
    (Gen.W6_of_ne m ρ c main_arg2 (by decide)).trans ((Host.keep1_arg2 (Gen.W4 m ρ c)).trans ka2_4)
  have ka3_6 : Gen.W6 m ρ c (Proc.devRef .tc main_arg3) = m ((c.tc : Thread nD τ).loc main_arg3) :=
    (Gen.W6_of_ne m ρ c main_arg3 (by decide)).trans ((Host.keep1_arg3 (Gen.W4 m ρ c)).trans ka3_4)
  have ka4_6 : Gen.W6 m ρ c (Proc.devRef .tc main_arg4) = m ((c.tc : Thread nD τ).loc main_arg4) :=
    (Gen.W6_of_ne m ρ c main_arg4 (by decide)).trans ((Host.keep1_arg4 (Gen.W4 m ρ c)).trans ka4_4)
  have ka5_6 : Gen.W6 m ρ c (Proc.devRef .tc main_arg5) = m ((c.tc : Thread nD τ).loc main_arg5) :=
    (Gen.W6_of_ne m ρ c main_arg5 (by decide)).trans ((Host.keep1_arg5 (Gen.W4 m ρ c)).trans ka5_4)
  have h2 := (step2 m ρ c _ _ _ h1a h1b k11_6 k18_6 ka2_6 ka3_6 ka4_6 ka5_6).1
  refine h2.trans ?_
  exact Cert.Gin.net3_congr scatter_S100000x128_S1600000x1_S1600000x128_1_0_0_1_wf gather_S100000x128_S1600000x1_S1600000x128_1_0_n_n_0_1_1128_wf Zk (m ((c.tc : Thread nD τ).loc main_arg0)) _ _ _ _ (agg_sorted m ρ c)
    (w1_0 m c) (b1_0 m c) (w2_0 m c) (b2_0 m c) (w1_1 m c) (b1_1 m c) (w2_1 m c) (b2_1 m c)
    (w1_2 m c) (b1_2 m c) (w2_2 m c) (b2_2 m c)

end Cert.Gin.K

end
-- ==== Proof.RefValue.lean ====
/-
  The value of the reference program is the three-layer network.

  The reference's result, the composed term of its six argument arrays, is layer by layer
      X ↦ dense(X + segment-sum(X)):
  the segment sum is the rows of X gathered at the source column and added into the zero array at the target column;
  the sum of X and its segment sum is multiplied by the first weight matrix, the first bias is added to every row and the
  maximum with zero taken, the result is multiplied by the second weight matrix and the second bias added to every row;
  an inner layer takes the maximum with zero once more, the last layer does not. Each host operation is the
  corresponding whole-array function on the extended reals (the product, the bias-then-maximum, the bias add, the
  entrywise sum), so one layer as the reference spells it is one layer of the network, and the three layers composed
  are the network at the reference's own argument terms: the zero array, the node features, the source column (a
  negative source index wrapped by the number of nodes), the target column, and the three layers' weight matrices and
  bias vectors cut out of the stacked arguments.
-/
import proofs.«125213_j28020366639701_2_alg».proof.Proof.Gen.ReferenceIdeal.Run
import proofs.«125213_j28020366639701_2_alg».proof.Proof.Net3

noncomputable section

namespace Cert.Gin.Ref

open Idealize.ShloMosaic Idealize.ShloMosaic.ValueIdx Idealize.ShloMosaic.TcCoe Idealize.SL.Sem
open Cert.ReferenceIdeal Cert.ReferenceIdeal.Facts₀ Cert.ReferenceIdeal.Facts Cert.ReferenceIdeal.Value
open Cert.Layer Cert.LibSegSum

variable [Cert.ReferenceIdeal.Facts]

/-! ## One layer as the reference spells it -/

/-- An inner layer in the reference's operations: X plus the rows of X gathered at si and added into Z at di, times W1,
    plus b1 on every row, maximum with zero, times W2, plus b2 on every row, maximum with zero. -/
def hostRelu (Z X : FVec Ideal S100000x128 .f32) (si di : IVec S1600000x1 32)
    (W1 : FVec Ideal S128x128 .f32) (b1 : FVec Ideal S128 .f32) (W2 : FVec Ideal S128x128 .f32) (b2 : FVec Ideal S128 .f32) : FVec Ideal S100000x128 .f32 :=
  maximumf (addf (Host.dotGeneral dot_S100000x128_S128x128_S100000x128_1_0_0_1_n_n none (maximumf (addf (Host.dotGeneral dot_S100000x128_S128x128_S100000x128_1_0_0_1_n_n none (addf X (Host.scatterAdd scatter_S100000x128_S1600000x1_S1600000x128_1_0_0_1 Z di (Host.gather gather_S100000x128_S1600000x1_S1600000x128_1_0_n_n_0_1_1128 X si))) W1) (broadcastInDim S100000x128 ![0, 1] bcast_S1x128_S100000x128_0_1 (broadcastInDim S1x128 ![1] bcast_S128_S1x128_1 b1))) (broadcastInDim S100000x128 ![] bcast_S_S100000x128 (constant S_ .f32 0x00000000#32))) W2) (broadcastInDim S100000x128 ![0, 1] bcast_S1x128_S100000x128_0_1 (broadcastInDim S1x128 ![1] bcast_S128_S1x128_1 b2))) (broadcastInDim S100000x128 ![] bcast_S_S100000x128 (constant S_ .f32 0x00000000#32))

/-- The last layer in the reference's operations: the same without the final maximum. -/
def hostLast (Z X : FVec Ideal S100000x128 .f32) (si di : IVec S1600000x1 32)
    (W1 : FVec Ideal S128x128 .f32) (b1 : FVec Ideal S128 .f32) (W2 : FVec Ideal S128x128 .f32) (b2 : FVec Ideal S128 .f32) : FVec Ideal S100000x128 .f32 :=
  addf (Host.dotGeneral dot_S100000x128_S128x128_S100000x128_1_0_0_1_n_n none (maximumf (addf (Host.dotGeneral dot_S100000x128_S128x128_S100000x128_1_0_0_1_n_n none (addf X (Host.scatterAdd scatter_S100000x128_S1600000x1_S1600000x128_1_0_0_1 Z di (Host.gather gather_S100000x128_S1600000x1_S1600000x128_1_0_n_n_0_1_1128 X si))) W1) (broadcastInDim S100000x128 ![0, 1] bcast_S1x128_S100000x128_0_1 (broadcastInDim S1x128 ![1] bcast_S128_S1x128_1 b1))) (broadcastInDim S100000x128 ![] bcast_S_S100000x128 (constant S_ .f32 0x00000000#32))) W2) (broadcastInDim S100000x128 ![0, 1] bcast_S1x128_S100000x128_0_1 (broadcastInDim S1x128 ![1] bcast_S128_S1x128_1 b2))

/-- The scalar the reference's maxima are taken with is the float zero. -/
theorem zero_eq : (constant (F := Ideal) S_ .f32 0x00000000#32) ix0 = z0 := rfl

/-- X plus the reference's scatter of its gathered rows is X plus the segment sum. -/
theorem hostPlusAgg_eq (Z X : FVec Ideal S100000x128 .f32) (si di : IVec S1600000x1 32) :
    addf X (Host.scatterAdd scatter_S100000x128_S1600000x1_S1600000x128_1_0_0_1 Z di (Host.gather gather_S100000x128_S1600000x1_S1600000x128_1_0_n_n_0_1_1128 X si))
      = plus X (agg scatter_S100000x128_S1600000x1_S1600000x128_1_0_0_1_wf gather_S100000x128_S1600000x1_S1600000x128_1_0_n_n_0_1_1128_wf Z X si di) := rfl

/-- The reference's inner layer is the network's inner layer. -/
theorem hostRelu_eq (Z X : FVec Ideal S100000x128 .f32) (si di : IVec S1600000x1 32)
    (W1 : FVec Ideal S128x128 .f32) (b1 : FVec Ideal S128 .f32) (W2 : FVec Ideal S128x128 .f32) (b2 : FVec Ideal S128 .f32) :
    hostRelu Z X si di W1 b1 W2 b2
      = layerRelu scatter_S100000x128_S1600000x1_S1600000x128_1_0_0_1_wf gather_S100000x128_S1600000x1_S1600000x128_1_0_n_n_0_1_1128_wf Z X si di W1 b1 W2 b2 := by
  unfold hostRelu layerRelu mlpRelu
  rw [hostPlusAgg_eq, dotGeneral_eq_prod dot_S100000x128_S128x128_S100000x128_1_0_0_1_n_n rfl rfl rfl rfl rfl rfl, hostAct_eq,
    dotGeneral_eq_prod dot_S100000x128_S128x128_S100000x128_1_0_0_1_n_n rfl rfl rfl rfl rfl rfl, hostAct_eq]
  rfl

/-- The reference's last layer is the network's last layer. -/
theorem hostLast_eq (Z X : FVec Ideal S100000x128 .f32) (si di : IVec S1600000x1 32)
    (W1 : FVec Ideal S128x128 .f32) (b1 : FVec Ideal S128 .f32) (W2 : FVec Ideal S128x128 .f32) (b2 : FVec Ideal S128 .f32) :
    hostLast Z X si di W1 b1 W2 b2
      = layerLast scatter_S100000x128_S1600000x1_S1600000x128_1_0_0_1_wf gather_S100000x128_S1600000x1_S1600000x128_1_0_n_n_0_1_1128_wf Z X si di W1 b1 W2 b2 := by
  unfold hostLast layerLast mlpLast
  rw [hostPlusAgg_eq, dotGeneral_eq_prod dot_S100000x128_S128x128_S100000x128_1_0_0_1_n_n rfl rfl rfl rfl rfl rfl, hostAct_eq,
    dotGeneral_eq_prod dot_S100000x128_S128x128_S100000x128_1_0_0_1_n_n rfl rfl rfl rfl rfl rfl, hostAddRow_eq]
  rfl

/-! ## The three layers -/

/-- Two inner layers and the last one as the reference spells them are the network. -/
theorem hostNet3_eq (Z X : FVec Ideal S100000x128 .f32) (si di : IVec S1600000x1 32)
    (W10 : FVec Ideal S128x128 .f32) (b10 : FVec Ideal S128 .f32) (W20 : FVec Ideal S128x128 .f32) (b20 : FVec Ideal S128 .f32)
    (W11 : FVec Ideal S128x128 .f32) (b11 : FVec Ideal S128 .f32) (W21 : FVec Ideal S128x128 .f32) (b21 : FVec Ideal S128 .f32)
    (W12 : FVec Ideal S128x128 .f32) (b12 : FVec Ideal S128 .f32) (W22 : FVec Ideal S128x128 .f32) (b22 : FVec Ideal S128 .f32) :
    hostLast Z (hostRelu Z (hostRelu Z X si di W10 b10 W20 b20) si di W11 b11 W21 b21) si di W12 b12 W22 b22
      = net3 scatter_S100000x128_S1600000x1_S1600000x128_1_0_0_1_wf gather_S100000x128_S1600000x1_S1600000x128_1_0_n_n_0_1_1128_wf
          Z X si di W10 b10 W20 b20 W11 b11 W21 b21 W12 b12 W22 b22 := by
  unfold net3
  rw [hostRelu_eq, hostRelu_eq, hostLast_eq]

set_option maxRecDepth 8192 in
/-- The reference's result is the network at the reference's own argument terms. -/
theorem ref_value (m : (ℓ : Loc nD τ sig) → Buf (Elt Ideal) ℓ) (c : Dev nD) :
    res_main_v94 (F := Ideal) m c
      = Cert.Gin.net3 scatter_S100000x128_S1600000x1_S1600000x128_1_0_0_1_wf gather_S100000x128_S1600000x1_S1600000x128_1_0_n_n_0_1_1128_wf
          (broadcastInDim S100000x128 ![] bcast_S_S100000x128 (constant (F := Ideal) S_ .f32 0x00000000#32))
          (m ((c.tc : Thread nD τ).loc main_arg0))
          (broadcastInDim S1600000x1 ![0] bcast_S1600000_S1600000x1_0 (select (cmpi .slt (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 0#32))) (addi (shapeCast _ (extractStridedSlice S1x1600000 ![0, 0] (m ((c.tc : Thread nD τ).loc main_arg1)) slices_S2x1600000_S1x1600000_0_0) shapeCasts_S1x1600000_S1600000) (broadcastInDim S1600000 ![] bcast_S_S1600000 (constantI S_ 32 100000#32))) (shapeCast _ (extractStridedSlice S1x1600000 ![0, 0] (m ((c.tc : Thread nD τ).loc main_arg1)) slices_S2x1600000_S1x1600000_0_0) shapeCasts_S1x1600000_S1600000)))
          (broadcastInDim S1600000x1 ![0] bcast_S1600000_S1600000x1_0 (shapeCast _ (extractStridedSlice S1x1600000 ![1, 0] (m ((c.tc : Thread nD τ).loc main_arg1)) slices_S2x1600000_S1x1600000_1_0) shapeCasts_S1x1600000_S1600000))
          (shapeCast _ (extractStridedSlice S1x128x128 ![0, 0, 0] (m ((c.tc : Thread nD τ).loc main_arg2)) slices_S3x128x128_S1x128x128_0_0_0) shapeCasts_S1x128x128_S128x128)
          (shapeCast _ (extractStridedSlice S1x128 ![0, 0] (m ((c.tc : Thread nD τ).loc main_arg3)) slices_S3x128_S1x128_0_0) shapeCasts_S1x128_S128)
          (shapeCast _ (extractStridedSlice S1x128x128 ![0, 0, 0] (m ((c.tc : Thread nD τ).loc main_arg4)) slices_S3x128x128_S1x128x128_0_0_0) shapeCasts_S1x128x128_S128x128)
          (shapeCast _ (extractStridedSlice S1x128 ![0, 0] (m ((c.tc : Thread nD τ).loc main_arg5)) slices_S3x128_S1x128_0_0) shapeCasts_S1x128_S128)
          (shapeCast _ (extractStridedSlice S1x128x128 ![1, 0, 0] (m ((c.tc : Thread nD τ).loc main_arg2)) slices_S3x128x128_S1x128x128_1_0_0) shapeCasts_S1x128x128_S128x128)
          (shapeCast _ (extractStridedSlice S1x128 ![1, 0] (m ((c.tc : Thread nD τ).loc main_arg3)) slices_S3x128_S1x128_1_0) shapeCasts_S1x128_S128)
          (shapeCast _ (extractStridedSlice S1x128x128 ![1, 0, 0] (m ((c.tc : Thread nD τ).loc main_arg4)) slices_S3x128x128_S1x128x128_1_0_0) shapeCasts_S1x128x128_S128x128)
          (shapeCast _ (extractStridedSlice S1x128 ![1, 0] (m ((c.tc : Thread nD τ).loc main_arg5)) slices_S3x128_S1x128_1_0) shapeCasts_S1x128_S128)
          (shapeCast _ (extractStridedSlice S1x128x128 ![2, 0, 0] (m ((c.tc : Thread nD τ).loc main_arg2)) slices_S3x128x128_S1x128x128_2_0_0) shapeCasts_S1x128x128_S128x128)
          (shapeCast _ (extractStridedSlice S1x128 ![2, 0] (m ((c.tc : Thread nD τ).loc main_arg3)) slices_S3x128_S1x128_2_0) shapeCasts_S1x128_S128)
          (shapeCast _ (extractStridedSlice S1x128x128 ![2, 0, 0] (m ((c.tc : Thread nD τ).loc main_arg4)) slices_S3x128x128_S1x128x128_2_0_0) shapeCasts_S1x128x128_S128x128)
          (shapeCast _ (extractStridedSlice S1x128 ![2, 0] (m ((c.tc : Thread nD τ).loc main_arg5)) slices_S3x128_S1x128_2_0) shapeCasts_S1x128_S128) := by
  rw [← hostNet3_eq]
  unfold res_main_v94 hostLast hostRelu
  rfl

end Cert.Gin.Ref

end
-- ==== Proof.lean ====
/-
  Three layers of a graph network on 100000 nodes and 1600000 edges: each layer adds to the node features X their
  segment sum A along the edges (row n of A is the sum of the rows X(source e) over the edges e with target n) and
  applies max(max((X + A) · W1 + b1, 0) · W2 + b2, 0), the last layer without the outer maximum.

  The kernel program sorts the edge list by target first (a stable argsort), takes every segment sum along the sorted
  list, narrows some operands to a shorter float format on the way (the identity on the extended reals) and computes
  the dense part of each layer in 25 blocks of 4000 rows; the reference does it with whole-array operations along the
  edge list as given.  On the extended reals the two results are equal element by element: a block of rows of the dense
  part is the dense part of the block of rows, and a segment sum is a sum over the edges, which a re-arrangement of the
  edges does not change (addition is commutative and associative there; no finiteness is needed, so the precondition is
  never opened).

  The frames of the two kernel programs come from the generated frame modules, the reference's run from its generated
  run module.  The kernel program's result is read region by region (a region's output arrays are the layer function of
  its input arrays) and stretch by stretch (each host operation's result from the contents it finds), and the
  reference's composed term is recognised as the same three-layer network.
-/
import proofs.«125213_j28020366639701_2_alg».proof.Defs
import proofs.«125213_j28020366639701_2_alg».proof.Proof.Gen.Kernel
import proofs.«125213_j28020366639701_2_alg».proof.Proof.Gen.Kernel.Frame
import proofs.«125213_j28020366639701_2_alg».proof.Proof.Gen.KernelIdeal
import proofs.«125213_j28020366639701_2_alg».proof.Proof.Gen.KernelIdeal.Frame
import proofs.«125213_j28020366639701_2_alg».proof.Proof.Gen.ReferenceIdeal
import proofs.«125213_j28020366639701_2_alg».proof.Proof.Gen.ReferenceIdeal.Run
import proofs.«125213_j28020366639701_2_alg».proof.Proof.Gen.Pre_finite_inputs
import proofs.«125213_j28020366639701_2_alg».proof.Proof.KRun
import proofs.«125213_j28020366639701_2_alg».proof.Proof.KValue
import proofs.«125213_j28020366639701_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- The idealized kernel program runs and leaves its arguments alone. -/
theorem frame_ki : Cert.frame_KernelIdeal := fun m ρ _ => Cert.KernelIdeal.Gen.frame m ρ

/-- The idealized reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the three-layer network of the node features along the edge list. -/
theorem algebraic : Cert.algebraic_KernelIdeal_ReferenceIdeal := by
  intro m ρ m' ρ' _ hagree
  refine ⟨fun c => Cert.Gin.net3 Cert.KernelIdeal.Facts₀.scatter_S100000x128_S1600000x1_S1600000x128_1_0_0_1_wf Cert.KernelIdeal.Facts₀.gather_S100000x128_S1600000x1_S1600000x128_1_0_n_n_0_1_1128_wf Cert.Gin.K.Zk
      (m ((c.tc : Thread Cert.KernelIdeal.nD Cert.KernelIdeal.τ).loc Cert.KernelIdeal.main_arg0))
      (Cert.Gin.K.wrapCol (Cert.Gin.K.srcK m c)) (Cert.Gin.K.col (Cert.Gin.K.dstK m c))
      (Cert.Gin.K.w1_0 m c) (Cert.Gin.K.b1_0 m c) (Cert.Gin.K.w2_0 m c) (Cert.Gin.K.b2_0 m c)
      (Cert.Gin.K.w1_1 m c) (Cert.Gin.K.b1_1 m c) (Cert.Gin.K.w2_1 m c) (Cert.Gin.K.b2_1 m c)
      (Cert.Gin.K.w1_2 m c) (Cert.Gin.K.b1_2 m c) (Cert.Gin.K.w2_2 m c) (Cert.Gin.K.b2_2 m c), ?_, ?_⟩
  · exact (θ_run Cert.KernelIdeal.defs _ _).mono
      (fun _ h c => ⟨(h c).1.trans (Cert.Gin.K.kernel_value m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.Gin.Ref.ref_value m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
